-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 62
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x64, .f32⟩
  | .hbm, ⟨38, _⟩ => ⟨S_, .f32⟩
  | .hbm, ⟨39, _⟩ => ⟨S100000x64, .f32⟩
  | .hbm, ⟨40, _⟩ => ⟨S1700000x1, .i32⟩
  | .hbm, ⟨41, _⟩ => ⟨S100000x64, .f32⟩
  | .hbm, ⟨42, _⟩ => ⟨S1x64, .f32⟩
  | .hbm, ⟨43, _⟩ => ⟨S100000x32, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x32, .f32⟩
  | .hbm, ⟨53, _⟩ => ⟨S_, .f32⟩
  | .hbm, ⟨54, _⟩ => ⟨S100000x32, .f32⟩
  | .hbm, ⟨55, _⟩ => ⟨S1700000x1, .i32⟩
  | .hbm, ⟨56, _⟩ => ⟨S100000x32, .f32⟩
  | .hbm, ⟨57, _⟩ => ⟨S100000x32, .f32⟩
  | .hbm, ⟨58, _⟩ => ⟨S100000x32, .f32⟩
  | .hbm, ⟨59, _⟩ => ⟨S1x32, .f32⟩
  | .hbm, ⟨60, _⟩ => ⟨S100000x32, .f32⟩
  | .hbm, ⟨61, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.LibRowOps.lean ====
/-
  Rows moved by index. Two StableHLO operations read at one element:

  * the gather that takes whole rows of a two-dimensional array, `x[idx]` for `x : [N, W]` and `idx : [E]` (carried as
    `[E, 1]`): element `(e, c)` of the result is `x` at row `idx[e]`, read as a signed integer and clamped into
    `[0, N − 1]`, column `c`;
  * the scatter with an `add` body that accumulates whole rows, `segment_sum(upd, idx, N)` for `upd : [E, W]`: element
    `(r, c)` of the result is the operand's plus the sum of `upd[e, c]` over the `e` whose index `idx[e]`, read as a
    signed integer and NOT clamped, is exactly `r` (an index outside `[0, N − 1]` lands nowhere); and the same for a
    flat operand `[N]` and updates `[E]`.

  Every statement is over abstract extents `N`, `E`, `W`; nothing here enumerates an index set.
-/
import Idealize.ShloMosaic.PureOps.Ideal
import Idealize.ShloMosaic.Lib.ValueIdx

noncomputable section

open scoped BigOperators

namespace Cert.RowOps

open Idealize.ShloMosaic Idealize.ShloMosaic.ValueIdx

/-! ## The row an index word names -/

/-- The row a gather reads for the start index `w`: `w` as a signed integer, clamped into `[0, N − 1]`. -/
def gatherRow (N : Nat) (hN : 0 < N) (w : BitVec 32) : Fin N := ⟨min w.toInt.toNat (N - 1), by omega⟩

/-- The row a scatter writes for the scatter index `w`: `w` as a signed integer when that is a row of the operand,
    none otherwise (the update is dropped; no clamping). -/
def scatterRow (N : Nat) (w : BitVec 32) : Option (Fin N) :=
  if h : 0 ≤ w.toInt ∧ w.toInt < (N : Int) then some ⟨w.toInt.toNat, by omega⟩ else none

/-- `scatterRow` names row `r` exactly when the index, read signed, is `r`. -/
theorem scatterRow_eq_some_iff {N : Nat} (w : BitVec 32) (r : Fin N) :
    scatterRow N w = some r ↔ w.toInt = (r.val : Int) := by
  unfold scatterRow
  constructor
  · intro h
    split at h
    · rename_i hw
      have := congrArg Fin.val (Option.some.inj h)
      simp only at this
      omega
    · exact absurd h (by simp)
  · intro h
    have hr := r.isLt
    rw [dif_pos (by omega)]
    exact congrArg some (Fin.ext (by simp only; omega))

/-! ## The gather of rows -/

section Gather
variable {α : Type}

/-- The dimension numbers of a gather of rows: operand `[N, W]`, start indices `[E, 1]`, result `[E, W]`; the result's
    axis 1 is the offset axis, operand axis 0 is collapsed and is the one the start index names, slices are `1 × W`. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row coordinate of the operand index that result index `(e, c)` reads: the clamped start index. -/
theorem rowGather_operandIdx_zero {N E W : Nat} (hN : 0 < N)
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 0 = gatherRow N hN (idx (ix2 e 0)) := by
  refine Fin.ext ?_
  show (rowGatherDims N E W wf).start (ix2 e c) idx 0 + (rowGatherDims N E W wf).batchCoord (ix2 e c) 0
    + (rowGatherDims N E W wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E W wf).startIndexMap from List.mem_singleton.mpr rfl)]
  have hsi : (rowGatherDims N E W wf).siIdx (ix2 e c) ⟨List.idxOf (0 : Fin 2) (rowGatherDims N E W wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column coordinate of the operand index that result index `(e, c)` reads: `c` itself. -/
theorem rowGather_operandIdx_one {N E W : Nat}
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 1 = c := by
  refine Fin.ext ?_
  show (rowGatherDims N E W wf).start (ix2 e c) idx 1 + (rowGatherDims N E W wf).batchCoord (ix2 e c) 1
    + (rowGatherDims N E W wf).offCoord (ix2 e c) 1 = _
  rw [GatherDims.batchCoord_eq_zero _ _ _ List.not_mem_nil]
  have hst : (rowGatherDims N E W wf).start (ix2 e c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows at `(e, c)`, for the literal dimension numbers `rowGatherDims`. -/
theorem gather_rowDims_apply {N E W : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ 32) (e : Fin E) (c : Fin W) :
    Host.gather (rowGatherDims N E W wf) x idx (ix2 e c) = x (ix2 (gatherRow N hN (idx (ix2 e 0))) c) := by
  unfold Host.gather
  refine congrArg x ((eq_ix2 _).trans ?_)
  rw [rowGather_operandIdx_zero hN wf idx e c, rowGather_operandIdx_one wf idx e c]
  rfl

/-- THE GATHER OF ROWS READ AT `(e, c)`: for any dimension numbers `d` whose fields are those of a gather of rows
    (each hypothesis is `rfl` at a program's record), the result at `(e, c)` is the operand at row
    `gatherRow N _ (idx[e])` — the start index read signed and clamped into `[0, N − 1]` — and column `c`. -/
theorem gather_rows_apply {N E W : Nat} (hN : 0 < N)
    (d : GatherDims ⟨2, ![N, W]⟩ ⟨2, ![E, 1]⟩ ⟨2, ![E, W]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, W])
    (x : (⟨2, ![N, W]⟩ : Shape).Idx → α) (idx : IVec ⟨2, ![E, 1]⟩ 32) (e : Fin E) (c : Fin W) :
    Host.gather d x idx (ix2 e c) = x (ix2 (gatherRow N hN (idx (ix2 e 0))) c) := by
  obtain ⟨od, cd, ob, sb, sm, iv, ss, wf⟩ := d
  simp only at hod hcd hob hsb hsm hiv hss
  subst hod hcd hob hsb hsm hiv hss
  exact gather_rowDims_apply hN wf x idx e c

end Gather

/-! ## The scatter-add of rows -/

section Scatter

/-- An axis of the operand is kept by a scatter exactly when it is not an inserted window axis. -/
theorem mem_scatter_sKept {s si u : Shape} (d : ScatterDims s si u) (a : Fin s.rank) :
    a ∈ d.sKept ↔ a ∉ d.insertedWindowDims := by
  simp [ScatterDims.sKept, Shape.kept, List.mem_filter, List.mem_finRange]

/-- The dimension numbers of a scatter of rows: operand `[N, W]`, scatter indices `[E, 1]`, updates `[E, W]`; the
    updates' axis 1 is the window axis, operand axis 0 is inserted and is the one the scatter index names. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W : Nat} (wf : ScatterDims.WF ⟨2, ![N, W]⟩ ⟨2, ![E, 1]⟩ ⟨2, ![E, W]⟩ [1] [0] [0] 1)
  (idx : IVec ⟨2, ![E, 1]⟩ 32) (j : (⟨2, ![E, W]⟩ : Shape).Idx)

/-- On the row axis the window of update `j` starts at its scatter index `idx[j₀]` read signed, and has no extent. -/
theorem rowScatter_pos_zero :
    (rowScatterDims N E W wf).start j idx 0 + ((rowScatterDims N E W wf).window j 0 : Int)
      = (idx (ix2 (j 0) 0)).toInt := by
  have hw : (rowScatterDims N E W wf).window j 0 = 0 := by
    unfold ScatterDims.window
    rw [dif_neg (fun h => ((mem_scatter_sKept _ _).mp h) (List.mem_singleton.mpr rfl))]
  have hs : (rowScatterDims N E W wf).start j idx 0 = (idx (ix2 (j 0) 0)).toInt := by
    unfold ScatterDims.start
    rw [dif_pos (show (0 : Fin 2) ∈ (rowScatterDims N E W wf).scatterDimsToOperandDims from List.mem_singleton.mpr rfl)]
    have hsi : (rowScatterDims N E W wf).siIdx j ⟨List.idxOf (0 : Fin 2) (rowScatterDims N E W wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- On the column axis the window of update `j` starts at `0` and the update sits at its own column `j₁`. -/
theorem rowScatter_pos_one :
    (rowScatterDims N E W wf).start j idx 1 + ((rowScatterDims N E W wf).window j 1 : Int) = ((j 1).val : Int) := by
  have hs : (rowScatterDims N E W wf).start j idx 1 = 0 := by
    unfold ScatterDims.start
    rw [dif_neg (show (1 : Fin 2) ∉ ([0] : List (Fin 2)) by decide)]
  have hw : (rowScatterDims N E W wf).window j 1 = (j 1).val := by
    unfold ScatterDims.window
    rw [dif_pos ((mem_scatter_sKept _ _).mpr (show (1 : Fin 2) ∉ ([0] : List (Fin 2)) by decide))]
    rfl
  rw [hw, hs]; simp

/-- WHERE AN UPDATE LANDS: update `j = (e, c')` lands on element `(r, c)` exactly when its scatter index names row `r`
    and `c' = c`. -/
theorem rowScatter_resultIdx?_eq_some_iff (r : Fin N) (c : Fin W) :
    (rowScatterDims N E W wf).resultIdx? j idx = some (ix2 r c)
      ↔ scatterRow N (idx (ix2 (j 0) 0)) = some r ∧ j 1 = c := by
  rw [scatterRow_eq_some_iff]
  have h0 := rowScatter_pos_zero wf idx j
  have h1 := rowScatter_pos_one wf idx j
  have hr := r.isLt
  have hj1 : (j 1).val < W := (j 1).isLt
  unfold ScatterDims.resultIdx?
  constructor
  · intro h
    split at h
    · rename_i hall
      have h' := Option.some.inj h
      have e0 := congrArg (fun f : (⟨2, ![N, W]⟩ : Shape).Idx => (f 0).val) h'
      have e1 := congrArg (fun f : (⟨2, ![N, W]⟩ : Shape).Idx => (f 1).val) h'
      have a0 := (hall 0).1
      simp only at e0 e1
      rw [h0] at e0 a0
      rw [h1] at e1
      refine ⟨?_, Fin.ext ?_⟩
      · have : ((ix2 r c : (⟨2, ![N, W]⟩ : Shape).Idx) 0).val = r.val := rfl
        omega
      · have : ((ix2 r c : (⟨2, ![N, W]⟩ : Shape).Idx) 1).val = c.val := rfl
        omega
    · exact absurd h (by simp)
  · rintro ⟨hz, hc⟩
    have hall : ∀ a : Fin (⟨2, ![N, W]⟩ : Shape).rank,
        0 ≤ (rowScatterDims N E W wf).start j idx a + ((rowScatterDims N E W wf).window j a : Int) ∧
        (rowScatterDims N E W wf).start j idx a + ((rowScatterDims N E W wf).window j a : Int)
          < ((⟨2, ![N, W]⟩ : Shape).size a : Int) := by
      refine Fin.forall_fin_two.mpr ⟨?_, ?_⟩
      · rw [h0, hz]
        exact ⟨by omega, by show (r.val : Int) < (N : Int); omega⟩
      · rw [h1]
        exact ⟨by omega, by show ((j 1).val : Int) < (W : Int); omega⟩
    rw [dif_pos hall]
    refine congrArg some ((eq_ix2 _).trans ?_)
    have c0 : (⟨((rowScatterDims N E W wf).start j idx 0 + ((rowScatterDims N E W wf).window j 0 : Int)).toNat,
        by have := hall 0; omega⟩ : Fin N) = r := Fin.ext (by simp only; omega)
    have c1 : (⟨((rowScatterDims N E W wf).start j idx 1 + ((rowScatterDims N E W wf).window j 1 : Int)).toNat,
        by have := hall 1; omega⟩ : Fin W) = c := Fin.ext (by simp only; rw [← hc]; omega)
    exact congrArg₂ ix2 c0 c1

end Scatter

section ScatterSum

/-- The scatter-add of rows at `(r, c)`, for the literal dimension numbers `rowScatterDims`: the updates that land on
    `(r, c)` are the `(e, c)` whose scatter index names row `r`, one for each such `e`. -/
theorem scatterAdd_rowDims_apply {N E W : Nat}
    (wf : ScatterDims.WF ⟨2, ![N, W]⟩ ⟨2, ![E, 1]⟩ ⟨2, ![E, W]⟩ [1] [0] [0] 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) (rowScatterDims N E W wf) x idx upd (ix2 r c)
      = x (ix2 r c) + ∑ e ∈ Finset.univ.filter (fun e : Fin E => scatterRow N (idx (ix2 e 0)) = some r),
          upd (ix2 e c) := by
  show Ideal.hostScatterAdd (rowScatterDims N E W wf) x idx upd (ix2 r c) = _
  unfold Ideal.hostScatterAdd
  congr 1
  refine Finset.sum_nbij' (fun j : (⟨2, ![E, W]⟩ : Shape).Idx => (j 0 : Fin E)) (fun e : Fin E => ix2 e c) ?_ ?_ ?_ ?_ ?_
  · intro j hj
    exact Finset.mem_filter.mpr ⟨Finset.mem_univ _,
      ((rowScatter_resultIdx?_eq_some_iff wf idx j r c).mp (Finset.mem_filter.mp hj).2).1⟩
  · intro e he
    exact Finset.mem_filter.mpr ⟨Finset.mem_univ _,
      (rowScatter_resultIdx?_eq_some_iff wf idx (ix2 e c) r c).mpr ⟨(Finset.mem_filter.mp he).2, rfl⟩⟩
  · intro j hj
    have hc := ((rowScatter_resultIdx?_eq_some_iff wf idx j r c).mp (Finset.mem_filter.mp hj).2).2
    show ix2 (j 0) c = j
    rw [← hc]
    exact (eq_ix2 j).symm
  · intro e _
    rfl
  · intro j hj
    have hc := ((rowScatter_resultIdx?_eq_some_iff wf idx j r c).mp (Finset.mem_filter.mp hj).2).2
    show upd j = upd (ix2 (j 0) c)
    rw [← hc]
    exact congrArg upd (eq_ix2 j)

/-- THE SCATTER-ADD OF ROWS READ AT `(r, c)`: for any dimension numbers `d` whose fields are those of a scatter of rows
    (each hypothesis is `rfl` at a program's record), the result at `(r, c)` is the operand's element plus the sum, over
    the `e` whose scatter index `idx[e]` read signed is exactly `r`, of the update's element `(e, c)`. -/
theorem scatterAdd_rows_apply {N E W : Nat} (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hiv : d.indexVectorDim = 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) d x idx upd (ix2 r c)
      = x (ix2 r c) + ∑ e ∈ Finset.univ.filter (fun e : Fin E => scatterRow N (idx (ix2 e 0)) = some r),
          upd (ix2 e c) := by
  obtain ⟨uw, iw, sd, iv, wf⟩ := d
  simp only at huw hiw hsd hiv
  subst huw hiw hsd hiv
  exact scatterAdd_rowDims_apply wf x idx upd r c

end ScatterSum

/-! ## The scatter-add into a flat array -/

section ScatterVec

/-- The dimension numbers of a scatter into a flat array: operand `[N]`, scatter indices `[E, 1]`, updates `[E]`; no
    window axis, the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (j : (⟨1, ![E]⟩ : Shape).Idx)

/-- On the operand's one axis the window of update `j` starts at its scatter index `idx[j₀]` read signed, and has no
    extent. -/
theorem vecScatter_pos_zero :
    (vecScatterDims N E wf).start j idx 0 + ((vecScatterDims N E wf).window j 0 : Int)
      = (idx (ix2 (j 0) 0)).toInt := by
  have hw : (vecScatterDims N E wf).window j 0 = 0 := by
    unfold ScatterDims.window
    rw [dif_neg (fun h => ((mem_scatter_sKept _ _).mp h) (List.mem_singleton.mpr rfl))]
  have hs : (vecScatterDims N E wf).start j idx 0 = (idx (ix2 (j 0) 0)).toInt := by
    unfold ScatterDims.start
    rw [dif_pos (show (0 : Fin 1) ∈ (vecScatterDims N E wf).scatterDimsToOperandDims from List.mem_singleton.mpr rfl)]
    have hsi : (vecScatterDims N E wf).siIdx j ⟨List.idxOf (0 : Fin 1) (vecScatterDims N E wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- WHERE AN UPDATE LANDS: update `j = (e)` lands on element `(r)` exactly when its scatter index names `r`. -/
theorem vecScatter_resultIdx?_eq_some_iff (r : Fin N) :
    (vecScatterDims N E wf).resultIdx? j idx = some (ix1 r) ↔ scatterRow N (idx (ix2 (j 0) 0)) = some r := by
  rw [scatterRow_eq_some_iff]
  have h0 := vecScatter_pos_zero wf idx j
  have hr := r.isLt
  unfold ScatterDims.resultIdx?
  constructor
  · intro h
    split at h
    · rename_i hall
      have h' := Option.some.inj h
      have e0 := congrArg (fun f : (⟨1, ![N]⟩ : Shape).Idx => (f 0).val) h'
      have a0 := (hall 0).1
      simp only at e0
      rw [h0] at e0 a0
      have : ((ix1 r : (⟨1, ![N]⟩ : Shape).Idx) 0).val = r.val := rfl
      omega
    · exact absurd h (by simp)
  · intro hz
    have hall : ∀ a : Fin (⟨1, ![N]⟩ : Shape).rank,
        0 ≤ (vecScatterDims N E wf).start j idx a + ((vecScatterDims N E wf).window j a : Int) ∧
        (vecScatterDims N E wf).start j idx a + ((vecScatterDims N E wf).window j a : Int)
          < ((⟨1, ![N]⟩ : Shape).size a : Int) := by
      intro a
      obtain rfl : a = 0 := Subsingleton.elim _ _
      rw [h0, hz]
      exact ⟨by omega, by show (r.val : Int) < (N : Int); omega⟩
    rw [dif_pos hall]
    refine congrArg some ((eq_ix1 _).trans ?_)
    have c0 : (⟨((vecScatterDims N E wf).start j idx 0 + ((vecScatterDims N E wf).window j 0 : Int)).toNat,
        by have := hall 0; omega⟩ : Fin N) = r := Fin.ext (by simp only; omega)
    exact congrArg ix1 c0

/-- The scatter-add into a flat array at `(r)`, for the literal dimension numbers `vecScatterDims`. -/
theorem scatterAdd_vecDims_apply
    (x : FVec Ideal ⟨1, ![N]⟩ .f32) (upd : FVec Ideal ⟨1, ![E]⟩ .f32)
    (r : Fin N) [DecidablePred fun e : Fin E => scatterRow N (idx (ix2 e 0)) = some r] :
    Host.scatterAdd (F := Ideal) (vecScatterDims N E wf) x idx upd (ix1 r)
      = x (ix1 r) + ∑ e ∈ Finset.univ.filter (fun e : Fin E => scatterRow N (idx (ix2 e 0)) = some r),
          upd (ix1 e) := by
  show Ideal.hostScatterAdd (vecScatterDims N E wf) x idx upd (ix1 r) = _
  unfold Ideal.hostScatterAdd
  congr 1
  refine Finset.sum_nbij' (fun j : (⟨1, ![E]⟩ : Shape).Idx => (j 0 : Fin E)) (fun e : Fin E => ix1 e) ?_ ?_ ?_ ?_ ?_
  · intro j hj
    exact Finset.mem_filter.mpr ⟨Finset.mem_univ _,
      (vecScatter_resultIdx?_eq_some_iff wf idx j r).mp (Finset.mem_filter.mp hj).2⟩
  · intro e he
    exact Finset.mem_filter.mpr ⟨Finset.mem_univ _,
      (vecScatter_resultIdx?_eq_some_iff wf idx (ix1 e) r).mpr (Finset.mem_filter.mp he).2⟩
  · intro j _
    exact (eq_ix1 j).symm
  · intro e _
    rfl
  · intro j _
    exact congrArg upd (eq_ix1 j)

/-- THE SCATTER-ADD INTO A FLAT ARRAY READ AT `(r)`: for any dimension numbers `d` whose fields are those of such a
    scatter (each hypothesis is `rfl` at a program's record), the result at `(r)` is the operand's element plus the sum,
    over the `e` whose scatter index `idx[e]` read signed is exactly `r`, of the update's element `(e)`. -/
theorem scatterAdd_vec_apply (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ 32) (upd : FVec Ideal ⟨1, ![E]⟩ .f32)
    (r : Fin N) [DecidablePred fun e : Fin E => scatterRow N (idx (ix2 e 0)) = some r] :
    Host.scatterAdd (F := Ideal) d x idx upd (ix1 r)
      = x (ix1 r) + ∑ e ∈ Finset.univ.filter (fun e : Fin E => scatterRow N (idx (ix2 e 0)) = some r),
          upd (ix1 e) := by
  obtain ⟨uw, iw, sd, iv, wf⟩ := d
  simp only at huw hiw hsd hiv
  subst huw hiw hsd hiv
  exact scatterAdd_vecDims_apply wf idx x upd r

end ScatterVec

end Cert.RowOps

end
-- ==== Proof.LibFinite.lean ====
/-
  Finite extended reals.

  An extended real is FINITE (here `IsReal`) when it is the image of a real number, equivalently when it is
  neither `⊤` nor `⊥`. The arithmetic of the extended reals is the arithmetic of the reals on the finite
  ones: sums, differences, products, finite sums, maxima and minima of finite values are finite, and so are a
  quotient by a finite divisor that is not zero, the exponential, and a power `r ^ (-1/2)` of a real `r ≥ 1`
  (which is moreover positive). Distributivity of the product over the sum FAILS on the extended reals at the
  infinities, so an algebraic law between two arrangements of a sum of products is proved on the reals and
  carried over; a part of this file is the toolkit for that: the coercion commutes with finite
  sums, and a family of finite extended reals is the coercion of a family of reals. The last part reads three
  stages of a network layer on finite values: min-max normalisation, the leaky activation, a column maximum or
  minimum.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-! ## Finite extended reals -/

/-- `x` is (the coercion of) a real number. -/
def IsReal (x : EReal) : Prop := ∃ r : ℝ, x = (r : EReal)

/-- The coercion of a real is finite. -/
theorem isReal_coe (r : ℝ) : IsReal (r : EReal) := ⟨r, rfl⟩

/-- Finite means: neither infinity. -/
theorem isReal_iff_ne {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real that is neither infinity is finite. -/
theorem isReal_of_ne {x : EReal} (ht : x ≠ ⊤) (hb : x ≠ ⊥) : IsReal x := isReal_iff_ne.mpr ⟨ht, hb⟩

/-- A finite value is not `⊤`. -/
theorem IsReal.ne_top {x : EReal} (h : IsReal x) : x ≠ ⊤ := (isReal_iff_ne.mp h).1

/-- A finite value is not `⊥`. -/
theorem IsReal.ne_bot {x : EReal} (h : IsReal x) : x ≠ ⊥ := (isReal_iff_ne.mp h).2

/-- A finite extended real is the coercion of its real part. -/
theorem IsReal.coe_toReal {x : EReal} (h : IsReal x) : ((x.toReal : ℝ) : EReal) = x :=
  EReal.coe_toReal h.ne_top h.ne_bot

/-- A finite value is above `⊥`. -/
theorem IsReal.bot_lt {x : EReal} (h : IsReal x) : ⊥ < x := bot_lt_iff_ne_bot.mpr h.ne_bot

/-- A finite value is below `⊤`. -/
theorem IsReal.lt_top {x : EReal} (h : IsReal x) : x < ⊤ := lt_top_iff_ne_top.mpr h.ne_top

/-- `⊤` is not finite. -/
theorem not_isReal_top : ¬ IsReal ⊤ := fun h => h.ne_top rfl

/-- `⊥` is not finite. -/
theorem not_isReal_bot : ¬ IsReal ⊥ := fun h => h.ne_bot rfl

/-! ## Closure under the arithmetic -/

/-- Zero is finite. -/
theorem isReal_zero : IsReal 0 := ⟨0, EReal.coe_zero.symm⟩

/-- One is finite. -/
theorem isReal_one : IsReal 1 := ⟨1, EReal.coe_one.symm⟩

/-- The sum of two finite values is finite. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The opposite of a finite value is finite. -/
theorem IsReal.neg {a : EReal} (ha : IsReal a) : IsReal (-a) := by
  obtain ⟨r, rfl⟩ := ha
  exact ⟨-r, (EReal.coe_neg r).symm⟩

/-- The difference of two finite values is finite. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The product of two finite values is finite. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of finite terms is finite. -/
theorem isReal_sum {ι : Type*} (s : Finset ι) (f : ι → EReal) (h : ∀ i ∈ s, IsReal (f i)) :
    IsReal (∑ i ∈ s, f i) :=
  Finset.sum_induction f IsReal (fun _ _ ha hb => ha.add hb) isReal_zero h

/-- The same over a whole finite type. -/
theorem isReal_sum_univ {ι : Type*} [Fintype ι] (f : ι → EReal) (h : ∀ i, IsReal (f i)) : IsReal (∑ i, f i) :=
  isReal_sum Finset.univ f fun i _ => h i

/-- A zero accumulator plus a finite sum of finite terms is finite. -/
theorem isReal_zero_add_sum {ι : Type*} (s : Finset ι) (f : ι → EReal) (h : ∀ i ∈ s, IsReal (f i)) :
    IsReal (0 + ∑ i ∈ s, f i) :=
  isReal_zero.add (isReal_sum s f h)

/-- A finite accumulator plus a finite sum of finite terms is finite. -/
theorem isReal_add_sum {ι : Type*} (s : Finset ι) (f : ι → EReal) {a : EReal} (ha : IsReal a)
    (h : ∀ i ∈ s, IsReal (f i)) : IsReal (a + ∑ i ∈ s, f i) :=
  ha.add (isReal_sum s f h)

/-! ## Maxima and minima -/

/-- The larger of two finite values is finite. -/
theorem IsReal.max {a b : EReal} (ha : IsReal a) (hb : IsReal b) : IsReal (max a b) := by
  rcases max_choice a b with h | h <;> rw [h] <;> assumption

/-- The smaller of two finite values is finite. -/
theorem IsReal.min {a b : EReal} (ha : IsReal a) (hb : IsReal b) : IsReal (min a b) := by
  rcases min_choice a b with h | h <;> rw [h] <;> assumption

/-- If every member of a family is finite, any value the family takes is finite: however a maximum or a
    minimum over the family is presented, once it is known to be attained it is finite. -/
theorem isReal_of_eq_apply {ι : Sort*} {f : ι → EReal} (h : ∀ i, IsReal (f i)) {m : EReal} (hm : ∃ i, m = f i) :
    IsReal m := by
  obtain ⟨i, rfl⟩ := hm
  exact h i

/-- The same over a finite set of indices. -/
theorem isReal_of_eq_apply_mem {ι : Type*} {s : Finset ι} {f : ι → EReal} (h : ∀ i ∈ s, IsReal (f i)) {m : EReal}
    (hm : ∃ i ∈ s, m = f i) : IsReal m := by
  obtain ⟨i, hi, rfl⟩ := hm
  exact h i hi

/-- The maximum of finitely many finite values, over a nonempty set of indices, is finite. -/
theorem isReal_sup' {ι : Type*} (s : Finset ι) (hs : s.Nonempty) (f : ι → EReal) (h : ∀ i ∈ s, IsReal (f i)) :
    IsReal (s.sup' hs f) := by
  obtain ⟨i, hi, he⟩ := Finset.exists_mem_eq_sup' hs f
  rw [he]
  exact h i hi

/-- The minimum of finitely many finite values, over a nonempty set of indices, is finite. -/
theorem isReal_inf' {ι : Type*} (s : Finset ι) (hs : s.Nonempty) (f : ι → EReal) (h : ∀ i ∈ s, IsReal (f i)) :
    IsReal (s.inf' hs f) := by
  obtain ⟨i, hi, he⟩ := Finset.exists_mem_eq_inf' hs f
  rw [he]
  exact h i hi

/-- The maximum of a family of finite values over a nonempty finite type is finite. -/
theorem isReal_univ_sup' {ι : Type*} [Fintype ι] [Nonempty ι] (f : ι → EReal) (h : ∀ i, IsReal (f i)) :
    IsReal (Finset.univ.sup' Finset.univ_nonempty f) :=
  isReal_sup' _ _ f fun i _ => h i

/-- The minimum of a family of finite values over a nonempty finite type is finite. -/
theorem isReal_univ_inf' {ι : Type*} [Fintype ι] [Nonempty ι] (f : ι → EReal) (h : ∀ i, IsReal (f i)) :
    IsReal (Finset.univ.inf' Finset.univ_nonempty f) :=
  isReal_inf' _ _ f fun i _ => h i

/-- A fold of `max` from a starting value is the starting value or one of the folded values. -/
theorem fold_max_eq_or {ι : Type*} (s : Finset ι) (b : EReal) (f : ι → EReal) :
    s.fold max b f = b ∨ ∃ i ∈ s, s.fold max b f = f i := by
  classical
  refine Finset.induction_on s (Or.inl (Finset.fold_empty)) ?_
  intro a t ha ih
  rw [Finset.fold_insert ha]
  rcases max_choice (f a) (t.fold max b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `min` from a starting value is the starting value or one of the folded values. -/
theorem fold_min_eq_or {ι : Type*} (s : Finset ι) (b : EReal) (f : ι → EReal) :
    s.fold min b f = b ∨ ∃ i ∈ s, s.fold min b f = f i := by
  classical
  refine Finset.induction_on s (Or.inl (Finset.fold_empty)) ?_
  intro a t ha ih
  rw [Finset.fold_insert ha]
  rcases min_choice (f a) (t.fold min b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `max` from a finite starting value over finite values is finite. -/
theorem isReal_fold_max {ι : Type*} (s : Finset ι) {b : EReal} (f : ι → EReal) (hb : IsReal b)
    (h : ∀ i ∈ s, IsReal (f i)) : IsReal (s.fold max b f) := by
  rcases fold_max_eq_or s b f with e | ⟨i, hi, e⟩ <;> rw [e]
  · exact hb
  · exact h i hi

/-- A fold of `min` from a finite starting value over finite values is finite. -/
theorem isReal_fold_min {ι : Type*} (s : Finset ι) {b : EReal} (f : ι → EReal) (hb : IsReal b)
    (h : ∀ i ∈ s, IsReal (f i)) : IsReal (s.fold min b f) := by
  rcases fold_min_eq_or s b f with e | ⟨i, hi, e⟩ <;> rw [e]
  · exact hb
  · exact h i hi

/-- A fold of `max` from `⊥` (the neutral element of a maximum) over finite values, on a nonempty set of
    indices, is finite: it is above one of them, hence not `⊥`, hence one of them. -/
theorem isReal_fold_max_bot {ι : Type*} (s : Finset ι) (hs : s.Nonempty) (f : ι → EReal)
    (h : ∀ i ∈ s, IsReal (f i)) : IsReal (s.fold max ⊥ f) := by
  rcases fold_max_eq_or s ⊥ f with e | ⟨i, hi, e⟩
  · obtain ⟨i, hi⟩ := hs
    have hle : f i ≤ s.fold max ⊥ f := (Finset.le_fold_max (f i)).mpr (Or.inr ⟨i, hi, le_rfl⟩)
    rw [e] at hle
    exact absurd (le_bot_iff.mp hle) (h i hi).ne_bot
  · rw [e]
    exact h i hi

/-- A fold of `min` from `⊤` (the neutral element of a minimum) over finite values, on a nonempty set of
    indices, is finite. -/
theorem isReal_fold_min_top {ι : Type*} (s : Finset ι) (hs : s.Nonempty) (f : ι → EReal)
    (h : ∀ i ∈ s, IsReal (f i)) : IsReal (s.fold min ⊤ f) := by
  rcases fold_min_eq_or s ⊤ f with e | ⟨i, hi, e⟩
  · obtain ⟨i, hi⟩ := hs
    have hle : s.fold min ⊤ f ≤ f i := (Finset.fold_min_le (f i)).mpr (Or.inr ⟨i, hi, le_rfl⟩)
    rw [e] at hle
    exact absurd (top_le_iff.mp hle) (h i hi).ne_top
  · rw [e]
    exact h i hi

/-! ## Quotient, exponential, power -/

/-- The quotient of two reals, the divisor not zero, is the real quotient. -/
theorem div_coe_coe (r : ℝ) {s : ℝ} (hs : s ≠ 0) : Ideal.div (r : EReal) (s : EReal) = ((r / s : ℝ) : EReal) := by
  rw [Ideal.div_coe hs, ← EReal.coe_mul, mul_one_div]

/-- The quotient of a finite value by a finite divisor that is not zero is finite. -/
theorem IsReal.div {a b : EReal} (ha : IsReal a) (hb : IsReal b) (hb0 : b ≠ 0) : IsReal (Ideal.div a b) := by
  obtain ⟨r, rfl⟩ := ha
  obtain ⟨s, rfl⟩ := hb
  have hs : s ≠ 0 := fun h0 => hb0 (by rw [h0, EReal.coe_zero])
  exact ⟨r / s, div_coe_coe r hs⟩

/-- The exponential of a real is a positive real. -/
theorem exp_coe_isReal (r : ℝ) : IsReal (Ideal.exp (r : EReal)) := ⟨Real.exp r, Ideal.exp_coe r⟩

/-- The exponential of a real is positive. -/
theorem exp_coe_pos (r : ℝ) : 0 < Ideal.exp (r : EReal) := by
  rw [Ideal.exp_coe]
  exact EReal.coe_pos.mpr (Real.exp_pos r)

/-- The exponential of a finite value is finite and positive. -/
theorem IsReal.exp {a : EReal} (ha : IsReal a) : IsReal (Ideal.exp a) ∧ 0 < Ideal.exp a := by
  obtain ⟨r, rfl⟩ := ha
  exact ⟨exp_coe_isReal r, exp_coe_pos r⟩

/-- A power of a positive real by a real exponent is a positive real. -/
theorem pow_coe_coe_of_pos {r : ℝ} (hr : 0 < r) (y : ℝ) :
    IsReal (Ideal.pow (r : EReal) (y : EReal)) ∧ 0 < Ideal.pow (r : EReal) (y : EReal) := by
  rw [Ideal.pow_coe_coe]
  exact ⟨isReal_coe _, EReal.coe_pos.mpr (Real.rpow_pos_of_pos hr y)⟩

/-- A real `r ≥ 1` to the power `-1/2` is a positive real. -/
theorem pow_neg_half_of_one_le {r : ℝ} (hr : 1 ≤ r) :
    IsReal (Ideal.pow (r : EReal) ((-(1 / 2) : ℝ) : EReal)) ∧ 0 < Ideal.pow (r : EReal) ((-(1 / 2) : ℝ) : EReal) :=
  pow_coe_coe_of_pos (lt_of_lt_of_le one_pos hr) _

/-- The same, naming the real value: `r ^ (-1/2) = (√r)⁻¹` for `r ≥ 0`. -/
theorem pow_neg_half_eq {r : ℝ} (hr : 0 ≤ r) :
    Ideal.pow (r : EReal) ((-(1 / 2) : ℝ) : EReal) = (((Real.sqrt r)⁻¹ : ℝ) : EReal) := by
  rw [Ideal.pow_coe_coe]
  congr 1
  show r ^ (-(1 / 2) : ℝ) = (Real.sqrt r)⁻¹
  rw [Real.rpow_neg hr, Real.sqrt_eq_rpow]

/-- The f32 pattern `0xBF000000` is the real `-1/2`. -/
theorem ofBits_neg_half_f32 : Ideal.ofBits .f32 0xBF000000#32 = ((-(1 / 2) : ℝ) : EReal) := by
  simp [Ideal.ofBits, Ideal.ieee, -EReal.coe_mul, -EReal.coe_neg]; norm_num

/-- A finite value `a ≥ 1` to the power written as the f32 pattern `0xBF000000` (that is `-1/2`) is finite and
    positive. -/
theorem IsReal.pow_neg_half {a : EReal} (ha : IsReal a) (h1 : 1 ≤ a) :
    IsReal (Ideal.pow a (Ideal.ofBits .f32 0xBF000000#32)) ∧ 0 < Ideal.pow a (Ideal.ofBits .f32 0xBF000000#32) := by
  obtain ⟨r, rfl⟩ := ha
  rw [ofBits_neg_half_f32]
  exact pow_neg_half_of_one_le (by exact_mod_cast h1)

/-- A finite value raised to at least one, `max a 1`, to the power `-1/2` (the f32 pattern `0xBF000000`) is finite
    and positive: the inverse square root of a degree clamped below by one. -/
theorem isReal_pow_neg_half_max_one {a : EReal} (ha : IsReal a) :
    IsReal (Ideal.pow (max a 1) (Ideal.ofBits .f32 0xBF000000#32))
      ∧ 0 < Ideal.pow (max a 1) (Ideal.ofBits .f32 0xBF000000#32) :=
  (ha.max isReal_one).pow_neg_half (le_max_right a 1)

/-! ## From finite extended reals to reals -/

/-- The coercion commutes with finite sums. -/
@[norm_cast]
theorem coe_sum {ι : Type*} (s : Finset ι) (f : ι → ℝ) : ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A family of finite extended reals is the coercion of a family of reals. -/
theorem exists_real_fun {ι : Sort*} (f : ι → EReal) (h : ∀ i, IsReal (f i)) : ∃ g : ι → ℝ, ∀ i, f i = (g i : EReal) := by
  choose g hg using h
  exact ⟨g, hg⟩

/-- The same for a family with two indices. -/
theorem exists_real_fun₂ {ι κ : Sort*} (f : ι → κ → EReal) (h : ∀ i k, IsReal (f i k)) :
    ∃ g : ι → κ → ℝ, ∀ i k, f i k = (g i k : EReal) := by
  choose g hg using h
  exact ⟨g, hg⟩

/-- As an equation of functions, ready for substitution. -/
theorem exists_real_fun_eq {ι : Sort*} (f : ι → EReal) (h : ∀ i, IsReal (f i)) :
    ∃ g : ι → ℝ, f = fun i => (g i : EReal) := by
  obtain ⟨g, hg⟩ := exists_real_fun f h
  exact ⟨g, funext hg⟩

/-- As an equation of functions, two indices. -/
theorem exists_real_fun₂_eq {ι κ : Sort*} (f : ι → κ → EReal) (h : ∀ i k, IsReal (f i k)) :
    ∃ g : ι → κ → ℝ, f = fun i k => (g i k : EReal) := by
  obtain ⟨g, hg⟩ := exists_real_fun₂ f h
  exact ⟨g, funext fun i => funext fun k => hg i k⟩

/-! ## Stages of a layer on finite values

Min-max normalisation, the leaky activation, and a column maximum or minimum keep finite values finite. -/

/-- Min-max normalisation of reals: `(a - r) / (s - r)` when `r < s`. -/
theorem minmax_coe (a : ℝ) {r s : ℝ} (h : r < s) :
    Ideal.div ((a : EReal) - (r : EReal)) ((s : EReal) - (r : EReal)) = (((a - r) / (s - r) : ℝ) : EReal) := by
  rw [← EReal.coe_sub, ← EReal.coe_sub]
  exact div_coe_coe _ (sub_ne_zero.mpr (ne_of_gt h))

/-- Min-max normalisation of a finite value between finite bounds `mn < mx` is finite. -/
theorem isReal_minmax {x mn mx : EReal} (hx : IsReal x) (hmn : IsReal mn) (hmx : IsReal mx) (h : mn < mx) :
    IsReal (Ideal.div (x - mn) (mx - mn)) := by
  obtain ⟨a, rfl⟩ := hx
  obtain ⟨r, rfl⟩ := hmn
  obtain ⟨s, rfl⟩ := hmx
  rw [minmax_coe a (EReal.coe_lt_coe_iff.mp h)]
  exact isReal_coe _

/-- An f32 word whose exponent field is not all ones (neither an infinity nor a NaN pattern) denotes a real. -/
theorem isReal_ofBits_f32 (w : BitVec 32) (h : (w.extractLsb' 23 8).toNat ≠ 2 ^ 8 - 1) :
    IsReal (Ideal.ofBits .f32 w) := by
  show IsReal (Ideal.ieee 8 23 w)
  unfold Ideal.ieee
  simp only [if_neg h]
  split_ifs <;> exact isReal_coe _

/-- The f32 word `0x3C23D70A` (the slope `0.01` of the leaky activation, rounded) denotes a real. -/
theorem isReal_ofBits_slope : IsReal (Ideal.ofBits .f32 0x3C23D70A#32) :=
  isReal_ofBits_f32 _ (by decide)

/-- The f32 word `0xFF800000` is `-∞`. -/
theorem ofBits_neg_inf_f32 : Ideal.ofBits .f32 0xFF800000#32 = ⊥ := by simp [Ideal.ofBits, Ideal.ieee]

/-- The f32 word `0x7F800000` is `+∞`. -/
theorem ofBits_pos_inf_f32 : Ideal.ofBits .f32 0x7F800000#32 = ⊤ := by simp [Ideal.ofBits, Ideal.ieee]

/-- The comparison `y > 0` against the f32 zero word answers the bit one when `0 < y`. -/
theorem cmpf_ogt_zero_of_pos {y : Ideal .f32} (hy : 0 < y) :
    FloatOps.cmpf .ogt y (Ideal.ofBits .f32 0x00000000#32) = 1#1 := by
  rw [Ideal.cmpf_def, Ideal.ofBits_zero_f32]
  show BitVec.ofBool (decide ((0 : EReal) < y)) = 1#1
  rw [decide_eq_true hy]
  rfl

/-- The comparison `y > 0` against the f32 zero word answers the bit zero when not `0 < y`. -/
theorem cmpf_ogt_zero_of_not_pos {y : Ideal .f32} (hy : ¬ 0 < y) :
    FloatOps.cmpf .ogt y (Ideal.ofBits .f32 0x00000000#32) = 0#1 := by
  rw [Ideal.cmpf_def, Ideal.ofBits_zero_f32]
  show BitVec.ofBool (decide ((0 : EReal) < y)) = 0#1
  rw [decide_eq_false hy]
  rfl

/-- The leaky activation `if y > 0 then y else c * y` at a positive value is the value. -/
theorem leaky_of_pos (c : Ideal .f32) {y : Ideal .f32} (hy : 0 < y) :
    Scalar.select (FloatOps.cmpf .ogt y (Ideal.ofBits .f32 0x00000000#32)) y (c * y) = y := by
  rw [cmpf_ogt_zero_of_pos hy]
  exact if_pos rfl

/-- The leaky activation at a value that is not positive is the slope times the value. -/
theorem leaky_of_not_pos (c : Ideal .f32) {y : Ideal .f32} (hy : ¬ 0 < y) :
    Scalar.select (FloatOps.cmpf .ogt y (Ideal.ofBits .f32 0x00000000#32)) y (c * y) = c * y := by
  rw [cmpf_ogt_zero_of_not_pos hy]
  exact if_neg (by decide)

/-- The leaky activation of a finite value with a finite slope is finite. -/
theorem isReal_leaky {c y : Ideal .f32} (hc : IsReal c) (hy : IsReal y) :
    IsReal (Scalar.select (FloatOps.cmpf .ogt y (Ideal.ofBits .f32 0x00000000#32)) y (c * y)) := by
  by_cases h : 0 < y
  · rw [leaky_of_pos c h]
    exact hy
  · rw [leaky_of_not_pos c h]
    exact hc.mul hy

/-- The leaky activation with the slope word `0x3C23D70A` of a finite value is finite. -/
theorem isReal_leaky_slope {y : Ideal .f32} (hy : IsReal y) :
    IsReal (Scalar.select (FloatOps.cmpf .ogt y (Ideal.ofBits .f32 0x00000000#32)) y
      (Ideal.ofBits .f32 0x3C23D70A#32 * y)) :=
  isReal_leaky isReal_ofBits_slope hy

/-! ### A maximum or minimum over one axis -/

section Reduce

variable {s t u : Shape} {a : Fin s.rank} {φ : FTy}

/-- A reduction with a maximum body over one axis is, at `j`, the fold of `max` from the initial value over that
    axis's coordinates. -/
theorem hostReduce_maximumf_eq_fold (x : FVec Ideal s φ) (init : FVec Ideal u φ) (h' : s.ReducesTo [a] t)
    (h : s.Reduces [a] t) (hu : 0 < u.numel) (j : t.Idx) :
    Host.reduce FloatOps.maximumf x init h' hu j
      = (Finset.univ : Finset (Fin (s.size a))).fold max (init (Shape.Idx.first hu)) (x ∘ h.lift j) :=
  Host.reduce_eq_fold_single FloatOps.maximumf x init h' h hu j

/-- A reduction with a minimum body over one axis is, at `j`, the fold of `min` from the initial value over that
    axis's coordinates. -/
theorem hostReduce_minimumf_eq_fold (x : FVec Ideal s φ) (init : FVec Ideal u φ) (h' : s.ReducesTo [a] t)
    (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

/-- The maximum over a nonempty axis, from `-∞`, of finite values is finite. -/
theorem isReal_hostReduce_maximumf (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) : IsReal (Host.reduce (α := Ideal φ) FloatOps.maximumf x init h' hu j) := by
  rw [hostReduce_maximumf_eq_fold x init h' h hu j, hinit]
  exact isReal_fold_max_bot _ ⟨⟨0, hpos⟩, Finset.mem_univ _⟩ _ fun k _ => hx _

/-- The maximum over an axis is at least every value along it. -/
theorem le_hostReduce_maximumf (x : FVec Ideal s φ) (init : FVec Ideal u φ) (h' : s.ReducesTo [a] t)
    (h : s.Reduces [a] t) (hu : 0 < u.numel) (j : t.Idx) (k : Fin (s.size a)) :
    x (h.lift j k) ≤ Host.reduce FloatOps.maximumf x init h' hu j := by
  rw [hostReduce_maximumf_eq_fold x init h' h hu j]
  exact (Finset.le_fold_max _).mpr (Or.inr ⟨k, Finset.mem_univ _, le_rfl⟩)

/-- Every entry is at most the maximum at the index it reduces to. -/
theorem le_hostReduce_maximumf_drop (x : FVec Ideal s φ) (init : FVec Ideal u φ) (h' : s.ReducesTo [a] t)
    (h : s.Reduces [a] t) (hu : 0 < u.numel) (i : s.Idx) :
    x i ≤ Host.reduce FloatOps.maximumf x init h' hu (h.drop i) := by
  have e := le_hostReduce_maximumf x init h' h hu (h.drop i) (i a)
  rwa [h.lift_drop] at e

/-- The maximum over a nonempty axis, from `-∞`, of finite values is one of them. -/
theorem hostReduce_maximumf_attained (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) :
    ∃ k : Fin (s.size a), Host.reduce FloatOps.maximumf x init h' hu j = x (h.lift j k) := by
  have hr := isReal_hostReduce_maximumf x init h' h hu hinit hpos hx j
  rw [hostReduce_maximumf_eq_fold x init h' h hu j, hinit] at hr ⊢
  rcases fold_max_eq_or Finset.univ ⊥ (x ∘ h.lift j) with e | ⟨k, _, e⟩
  · rw [e] at hr
    exact absurd hr not_isReal_bot
  · exact ⟨k, e⟩

/-- The minimum over a nonempty axis, from `+∞`, of finite values is finite. -/
theorem isReal_hostReduce_minimumf (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) : IsReal (Host.reduce (α := Ideal φ) FloatOps.minimumf x init h' hu j) := by
  rw [hostReduce_minimumf_eq_fold x init h' h hu j, hinit]
  exact isReal_fold_min_top _ ⟨⟨0, hpos⟩, Finset.mem_univ _⟩ _ fun k _ => hx _

/-- The minimum over an axis is at most every value along it. -/
theorem hostReduce_minimumf_le (x : FVec Ideal s φ) (init : FVec Ideal u φ) (h' : s.ReducesTo [a] t)
    (h : s.Reduces [a] t) (hu : 0 < u.numel) (j : t.Idx) (k : Fin (s.size a)) :
    Host.reduce FloatOps.minimumf x init h' hu j ≤ x (h.lift j k) := by
  rw [hostReduce_minimumf_eq_fold x init h' h hu j]
  exact (Finset.fold_min_le _).mpr (Or.inr ⟨k, Finset.mem_univ _, le_rfl⟩)

/-- Every entry is at least the minimum at the index it reduces to. -/
theorem hostReduce_minimumf_drop_le (x : FVec Ideal s φ) (init : FVec Ideal u φ) (h' : s.ReducesTo [a] t)
    (h : s.Reduces [a] t) (hu : 0 < u.numel) (i : s.Idx) :
    Host.reduce FloatOps.minimumf x init h' hu (h.drop i) ≤ x i := by
  have e := hostReduce_minimumf_le x init h' h hu (h.drop i) (i a)
  rwa [h.lift_drop] at e

/-- The minimum over a nonempty axis, from `+∞`, of finite values is one of them. -/
theorem hostReduce_minimumf_attained (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) :
    ∃ k : Fin (s.size a), Host.reduce FloatOps.minimumf x init h' hu j = x (h.lift j k) := by
  have hr := isReal_hostReduce_minimumf x init h' h hu hinit hpos hx j
  rw [hostReduce_minimumf_eq_fold x init h' h hu j, hinit] at hr ⊢
  rcases fold_min_eq_or Finset.univ ⊤ (x ∘ h.lift j) with e | ⟨k, _, e⟩
  · rw [e] at hr
    exact absurd hr not_isReal_top
  · exact ⟨k, e⟩

end Reduce

/-! ### The column maximum and minimum of a matrix -/

section Column

open Idealize.ShloMosaic.ValueIdx

variable {R C : Nat}

/-- In a reduction of an `R × C` matrix over its rows, column `c` with row `k` put back is the entry `(k, c)`. -/
theorem lift_ix2 (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext d
  apply Fin.ext
  fin_cases d <;> rfl

/-- The column maximum, from the word of `-∞`, of a matrix of finite values with at least one row is finite. -/
theorem isReal_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.maximumf x (constant (⟨0, ![]⟩ : Shape) .f32 0xFF800000#32) h' hu (ix1 c)) :=
  isReal_hostReduce_maximumf x (constant (⟨0, ![]⟩ : Shape) .f32 0xFF800000#32) h' h hu ofBits_neg_inf_f32 hR hx (ix1 c)

/-- The column maximum is at least every entry of the column. -/
theorem le_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    x (ix2 r c) ≤ Host.reduce FloatOps.maximumf x (constant (⟨0, ![]⟩ : Shape) .f32 0xFF800000#32) h' hu (ix1 c) := by
  have e := le_hostReduce_maximumf x (constant (⟨0, ![]⟩ : Shape) .f32 0xFF800000#32) h' h hu (ix1 c) r
  rwa [lift_ix2 h c r] at e

/-- The column maximum of a matrix of finite values with at least one row is an entry of the column. -/
theorem colMax_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.maximumf x (constant (⟨0, ![]⟩ : Shape) .f32 0xFF800000#32) h' hu (ix1 c) = x (ix2 r c) := by
  obtain ⟨k, e⟩ := hostReduce_maximumf_attained x (constant (⟨0, ![]⟩ : Shape) .f32 0xFF800000#32) h' h hu ofBits_neg_inf_f32 hR hx (ix1 c)
  exact ⟨⟨k.val, k.isLt⟩, by rw [e, lift_ix2 h c k]⟩

/-- The column minimum, from the word of `+∞`, of a matrix of finite values with at least one row is finite. -/
theorem isReal_colMin (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.minimumf x (constant (⟨0, ![]⟩ : Shape) .f32 0x7F800000#32) h' hu (ix1 c)) :=
  isReal_hostReduce_minimumf x (constant (⟨0, ![]⟩ : Shape) .f32 0x7F800000#32) h' h hu ofBits_pos_inf_f32 hR hx (ix1 c)

/-- The column minimum is at most every entry of the column. -/
theorem colMin_le (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    Host.reduce FloatOps.minimumf x (constant (⟨0, ![]⟩ : Shape) .f32 0x7F800000#32) h' hu (ix1 c) ≤ x (ix2 r c) := by
  have e := hostReduce_minimumf_le x (constant (⟨0, ![]⟩ : Shape) .f32 0x7F800000#32) h' h hu (ix1 c) r
  rwa [lift_ix2 h c r] at e

/-- The column minimum of a matrix of finite values with at least one row is an entry of the column. -/
theorem colMin_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.minimumf x (constant (⟨0, ![]⟩ : Shape) .f32 0x7F800000#32) h' hu (ix1 c) = x (ix2 r c) := by
  obtain ⟨k, e⟩ := hostReduce_minimumf_attained x (constant (⟨0, ![]⟩ : Shape) .f32 0x7F800000#32) h' h hu ofBits_pos_inf_f32 hR hx (ix1 c)
  exact ⟨⟨k.val, k.isLt⟩, by rw [e, lift_ix2 h c k]⟩

end Column

end Cert.Finite
-- ==== Proof.Spec.lean ====
/-
  Two layers of graph convolution with symmetric degree normalisation, written twice, as functions of the node
  features, the two weight matrices, the two biases, and the two lists of edge end points (one word per edge).

  An edge `e` LANDS on node `d` when its destination word, read as a signed integer, is exactly `d` (a word that names
  no node lands nowhere). The in-degree of `d` counts the edges that land on it, and `dinv d` is its inverse square root,
  or zero where nothing lands. An edge READS the node its source word names after the usual index normalisation:
  a negative word has the number of nodes added, and the result is clamped into the node range.

  `outR` is the textbook form: every message is scaled on the edge by `dinv (source) * dinv (destination)` and the
  messages landing on a node are summed. `outK` scales on the nodes instead: the features are multiplied by `dinv`
  before they are read along the edges, and the sum at a node is multiplied by that node's `dinv` afterwards. The two
  agree because an edge that lands on `d` has destination `d`, so its factor `dinv (destination)` is the same for all
  the edges of one sum and can be taken out of it, which on the extended reals needs every term to be a real number.
-/
import Idealize.ShloMosaic.PureOps.Ideal
import Idealize.ShloMosaic.PureOps.Ideal.Laws
import Idealize.ShloMosaic.Lib.ValueIdx
import proofs.«145473_j49100066128394_2_alg».proof.Proof.LibRowOps
import proofs.«145473_j49100066128394_2_alg».proof.Proof.LibFinite

noncomputable section

open scoped BigOperators

namespace Cert.Gcn

open Idealize.ShloMosaic Idealize.ShloMosaic.ValueIdx Cert.RowOps Cert.Finite

/-- The value of the all-zero word. -/
abbrev z0 : EReal := Ideal.ofBits .f32 0x00000000#32
/-- The value of the word of `1.0`. -/
abbrev one0 : EReal := Ideal.ofBits .f32 0x3F800000#32

/-- Index normalisation of a word: a negative word has the number of nodes added. -/
def nrmW (w : BitVec 32) : BitVec 32 := Scalar.select (IntOp.cmpi .slt w 0#32) (IntOp.addi w 100000#32) w

/-- The node a word names when a row is read by it: normalised, then clamped into the node range. -/
def gRow (w : BitVec 32) : Fin 100000 := gatherRow 100000 (by decide) (nrmW w)

/-- The edges that land on node `d`. -/
def hits (dst : Fin 1700000 → BitVec 32) (d : Fin 100000) : Finset (Fin 1700000) :=
  Finset.univ.filter (fun e : Fin 1700000 => scatterRow 100000 (dst e) = some d)

/-- The in-degree of node `d`: one for every edge that lands on it. -/
def deg (dst : Fin 1700000 → BitVec 32) (d : Fin 100000) : EReal := z0 + ∑ _e ∈ hits dst d, one0

/-- The inverse square root of a positive number, zero otherwise. -/
def dinvAt (g : EReal) : EReal :=
  Scalar.select (FloatOps.cmpf (F := Ideal) (φ := .f32) .ogt g z0) (FloatOps.hostUnary (F := Ideal) (φ := .f32) .rsqrt g) z0

/-- The normalisation factor of node `d`. -/
def dinv (dst : Fin 1700000 → BitVec 32) (d : Fin 100000) : EReal := dinvAt (deg dst d)

section Layers

variable (x : (⟨2, ![100000, 128]⟩ : Shape).Idx → EReal) (w1 : (⟨2, ![128, 64]⟩ : Shape).Idx → EReal)
  (b1 : (⟨1, ![64]⟩ : Shape).Idx → EReal) (w2 : (⟨2, ![64, 32]⟩ : Shape).Idx → EReal)
  (b2 : (⟨1, ![32]⟩ : Shape).Idx → EReal) (src dst : Fin 1700000 → BitVec 32)

/-- The first dense layer: features times weights. -/
def h1 (n : Fin 100000) (c : Fin 64) : EReal := ∑ k : Fin 128, x (ix2 n k) * w1 (ix2 k c)

/-! ### Scaling on the nodes -/

/-- The first layer's features scaled by the node's factor. -/
def hs1 (n : Fin 100000) (c : Fin 64) : EReal := h1 x w1 n c * dinv dst n
/-- The scaled features summed over the edges landing on `d`. -/
def agg1 (d : Fin 100000) (c : Fin 64) : EReal := z0 + ∑ e ∈ hits dst d, hs1 x w1 dst (gRow (src e)) c
/-- The hidden activation: the sum scaled by the node's factor, plus the bias, clipped at zero. -/
def act1 (d : Fin 100000) (c : Fin 64) : EReal := max (agg1 x w1 src dst d c * dinv dst d + b1 (ix1 c)) z0
/-- The second dense layer on the hidden activation. -/
def h2k (d : Fin 100000) (c : Fin 32) : EReal := ∑ k : Fin 64, act1 x w1 b1 src dst d k * w2 (ix2 k c)
/-- The second layer's features scaled by the node's factor. -/
def hs2 (d : Fin 100000) (c : Fin 32) : EReal := h2k x w1 b1 w2 src dst d c * dinv dst d
/-- The scaled second-layer features summed over the edges landing on `d`. -/
def agg2 (d : Fin 100000) (c : Fin 32) : EReal := z0 + ∑ e ∈ hits dst d, hs2 x w1 b1 w2 src dst (gRow (src e)) c
/-- The result when the scaling is done on the nodes. -/
def outK (d : Fin 100000) (c : Fin 32) : EReal := dinv dst d * agg2 x w1 b1 w2 src dst d c + b2 (ix1 c)

/-! ### Scaling on the edges -/

/-- The factor of edge `e`: the factor of the node it reads times the factor of the node its destination word reads. -/
def nrmE (e : Fin 1700000) : EReal := dinv dst (gRow (src e)) * dinv dst (gRow (dst e))
/-- The first layer's message along edge `e`. -/
def msg1 (e : Fin 1700000) (c : Fin 64) : EReal := h1 x w1 (gRow (src e)) c * nrmE src dst e
/-- The messages landing on `d`, plus the bias. -/
def o1 (d : Fin 100000) (c : Fin 64) : EReal := (z0 + ∑ e ∈ hits dst d, msg1 x w1 src dst e c) + b1 (ix1 c)
/-- The hidden activation. -/
def r1 (d : Fin 100000) (c : Fin 64) : EReal := max (o1 x w1 b1 src dst d c) z0
/-- The second dense layer on the hidden activation. -/
def h2r (d : Fin 100000) (c : Fin 32) : EReal := ∑ k : Fin 64, r1 x w1 b1 src dst d k * w2 (ix2 k c)
/-- The second layer's message along edge `e`. -/
def msg2 (e : Fin 1700000) (c : Fin 32) : EReal := h2r x w1 b1 w2 src dst (gRow (src e)) c * nrmE src dst e
/-- The result when the scaling is done on the edges. -/
def outR (d : Fin 100000) (c : Fin 32) : EReal := (z0 + ∑ e ∈ hits dst d, msg2 x w1 b1 w2 src dst e c) + b2 (ix1 c)

end Layers

end Cert.Gcn

end
-- ==== Proof.LibVecGather.lean ====
/-
  Elements of a flat array moved by index. The StableHLO gather that takes single elements of a one-dimensional array,
  `x[idx]` for `x : [N]` and `idx : [E]` (carried as `[E, 1]`), read at one element: element `(e)` of the result is
  `x` at `idx[e]`, read as a signed integer and clamped into `[0, N − 1]`.

  Every statement is over abstract extents `N`, `E`; nothing here enumerates an index set.
-/
import Idealize.ShloMosaic.PureOps.Ideal
import Idealize.ShloMosaic.Lib.ValueIdx
import proofs.«145473_j49100066128394_2_alg».proof.Proof.LibRowOps

noncomputable section

namespace Cert.VecGather

open Idealize.ShloMosaic Idealize.ShloMosaic.ValueIdx Cert.RowOps

variable {α : Type}

/-- The dimension numbers of a gather of single elements: operand `[N]`, start indices `[E, 1]`, result `[E]`; the
    result has no offset axis, the operand's one axis is collapsed and is the one the start index names, slices have
    one element. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The one coordinate of the operand index that result index `(e)` reads: the clamped start index. -/
theorem vecGather_operandIdx_zero {N E : Nat} (hN : 0 < N)
    (wf : GatherDims.WF ⟨1, ![N]⟩ ⟨2, ![E, 1]⟩ ⟨1, ![E]⟩ [] [0] [] [0] [] 1 ![1])
    (idx : IVec ⟨2, ![E, 1]⟩ 32) (e : Fin E) :
    (vecGatherDims N E wf).operandIdx (ix1 e) idx 0 = gatherRow N hN (idx (ix2 e 0)) := by
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather of single elements at `(e)`, for the literal dimension numbers `vecGatherDims`. -/
theorem gather_vecDims_apply {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (vecGatherDims N E wf) x idx (ix1 e) = x (ix1 (gatherRow N hN (idx (ix2 e 0)))) := by
  unfold Host.gather
  refine congrArg x ((eq_ix1 _).trans ?_)
  rw [vecGather_operandIdx_zero hN wf idx e]
  rfl

/-- THE GATHER OF SINGLE ELEMENTS READ AT `(e)`: for any dimension numbers `d` whose fields are those of a gather of
    single elements of a flat array (each hypothesis is `rfl` at a program's record), the result at `(e)` is the operand
    at `gatherRow N _ (idx[e])`: the start index read signed and clamped into `[0, N − 1]`. -/
theorem gather_vec_apply {N E : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ 32) (e : Fin E) :
    Host.gather d x idx (ix1 e) = x (ix1 (gatherRow N hN (idx (ix2 e 0)))) := by
  obtain ⟨od, cd, ob, sb, sm, iv, ss, wf⟩ := d
  simp only at hod hcd hob hsb hsm hiv hss
  subst hod hcd hob hsb hsm hiv hss
  exact gather_vecDims_apply hN wf x idx e

end Cert.VecGather

end
-- ==== Proof.RefValue.lean ====
/-
  The reference computation read one element at a time. Every array the reference builds is identified, at an index,
  with the corresponding quantity of the edge-scaled form of the two-layer graph convolution: the index words and their
  normalisation, the in-degree and its inverse square root (computed twice, once per layer), the factor of an edge, the
  dense layers, the messages along the edges, their sums over the edges landing on a node, the bias and the clipping.
  Nothing here needs the inputs to be finite: it is reading only.
-/
import proofs.«145473_j49100066128394_2_alg».proof.Proof.RefRead
import proofs.«145473_j49100066128394_2_alg».proof.Proof.Spec
import proofs.«145473_j49100066128394_2_alg».proof.Proof.LibRowOps
import proofs.«145473_j49100066128394_2_alg».proof.Proof.LibVecGather

noncomputable section

open scoped BigOperators

namespace Cert.ReferenceIdeal.RefValue

open Cert.ReferenceIdeal Cert.ReferenceIdeal.ReadP Idealize.ShloMosaic Idealize.ShloMosaic.ValueIdx
open Cert.RowOps Cert.VecGather

/-- The source word of edge `e`. -/
def srcW (x1 : (⟨S2x1600000, .i32⟩ : BufTy).Contents (Elt Ideal)) : Fin 1700000 → BitVec 32 :=
  fun e => ReadP.val_main_v3 (F := Ideal) x1 (ix1 e)
/-- The destination word of edge `e`. -/
def dstW (x1 : (⟨S2x1600000, .i32⟩ : BufTy).Contents (Elt Ideal)) : Fin 1700000 → BitVec 32 :=
  fun e => ReadP.val_main_v6 (F := Ideal) x1 (ix1 e)

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))

/-! ## The index words -/

/-- The edges whose scatter index names node `n`, for an index array that carries the destination words. -/
theorem hits_of (idx : (⟨S1700000x1, .i32⟩ : BufTy).Contents (Elt Ideal)) (h : ∀ e : Fin 1700000, idx (ix2 e 0) = dstW x1 e)
    (n : Fin 100000) :
    Finset.univ.filter (fun e : Fin 1700000 => scatterRow 100000 (idx (ix2 e 0)) = some n) = Cert.Gcn.hits (dstW x1) n := by
  unfold Cert.Gcn.hits
  exact Finset.filter_congr (fun e _ => by rw [h e])

/-! The scatter indices are the destination words as they are. -/

theorem v10_at (e : Fin 1700000) : val_main_v10 (F := Ideal) x1 (ix2 e 0) = dstW x1 e := by
  rw [val_main_v10_apply]
  exact congrArg (val_main_v6 (F := Ideal) x1) (funext fun a => Fin.ext (by match a with | ⟨0, _⟩ => rfl))

theorem v42_at (e : Fin 1700000) : val_main_v42 (F := Ideal) x1 (ix2 e 0) = dstW x1 e := by
  rw [val_main_v42_apply]
  exact congrArg (val_main_v6 (F := Ideal) x1) (funext fun a => Fin.ext (by match a with | ⟨0, _⟩ => rfl))

theorem v51_at (e : Fin 1700000) : val_main_v51 (F := Ideal) x1 (ix2 e 0) = dstW x1 e := by
  rw [val_main_v51_apply]
  exact congrArg (val_main_v6 (F := Ideal) x1) (funext fun a => Fin.ext (by match a with | ⟨0, _⟩ => rfl))

theorem v83_at (e : Fin 1700000) : val_main_v83 (F := Ideal) x1 (ix2 e 0) = dstW x1 e := by
  rw [val_main_v83_apply]
  exact congrArg (val_main_v6 (F := Ideal) x1) (funext fun a => Fin.ext (by match a with | ⟨0, _⟩ => rfl))

/-! The gather indices are the normalised words. -/

theorem v21_at (e : Fin 1700000) : val_main_v21 (F := Ideal) x1 (ix2 e 0) = Cert.Gcn.nrmW (srcW x1 e) := by
  have hi : idx_main_v21 (ix2 e 0) = ix1 e := (funext fun a => Fin.ext (by match a with | ⟨0, _⟩ => rfl))
  rw [val_main_v21_apply, hi, val_main_v20_apply, val_main_v17_apply, val_main_v19_apply, val_main_v16_apply,
    val_main_v18_apply]
  rfl

theorem v28_at (e : Fin 1700000) : val_main_v28 (F := Ideal) x1 (ix2 e 0) = Cert.Gcn.nrmW (dstW x1 e) := by
  have hi : idx_main_v28 (ix2 e 0) = ix1 e := (funext fun a => Fin.ext (by match a with | ⟨0, _⟩ => rfl))
  rw [val_main_v28_apply, hi, val_main_v27_apply, val_main_v24_apply, val_main_v26_apply, val_main_v23_apply,
    val_main_v25_apply]
  rfl

theorem v36_at (e : Fin 1700000) : val_main_v36 (F := Ideal) x1 (ix2 e 0) = Cert.Gcn.nrmW (srcW x1 e) := by
  have hi : idx_main_v36 (ix2 e 0) = ix1 e := (funext fun a => Fin.ext (by match a with | ⟨0, _⟩ => rfl))
  rw [val_main_v36_apply, hi, val_main_v35_apply, val_main_v32_apply, val_main_v34_apply, val_main_v31_apply,
    val_main_v33_apply]
  rfl

theorem v62_at (e : Fin 1700000) : val_main_v62 (F := Ideal) x1 (ix2 e 0) = Cert.Gcn.nrmW (srcW x1 e) := by
  have hi : idx_main_v62 (ix2 e 0) = ix1 e := (funext fun a => Fin.ext (by match a with | ⟨0, _⟩ => rfl))
  rw [val_main_v62_apply, hi, val_main_v61_apply, val_main_v58_apply, val_main_v60_apply, val_main_v57_apply,
    val_main_v59_apply]
  rfl

theorem v69_at (e : Fin 1700000) : val_main_v69 (F := Ideal) x1 (ix2 e 0) = Cert.Gcn.nrmW (dstW x1 e) := by
  have hi : idx_main_v69 (ix2 e 0) = ix1 e := (funext fun a => Fin.ext (by match a with | ⟨0, _⟩ => rfl))
  rw [val_main_v69_apply, hi, val_main_v68_apply, val_main_v65_apply, val_main_v67_apply, val_main_v64_apply,
    val_main_v66_apply]
  rfl

theorem v77_at (e : Fin 1700000) : val_main_v77 (F := Ideal) x1 (ix2 e 0) = Cert.Gcn.nrmW (srcW x1 e) := by
  have hi : idx_main_v77 (ix2 e 0) = ix1 e := (funext fun a => Fin.ext (by match a with | ⟨0, _⟩ => rfl))
  rw [val_main_v77_apply, hi, val_main_v76_apply, val_main_v73_apply, val_main_v75_apply, val_main_v72_apply,
    val_main_v74_apply]
  rfl

/-! ## The in-degree and the normalisation factor (computed once per layer) -/

/-- The in-degree: the scatter-add of ones into zeros, read at node `n`. -/
theorem v11_at (n : Fin 100000) : val_main_v11 (F := Ideal) x1 (ix1 n) = Cert.Gcn.deg (dstW x1) n := by
  refine (scatterAdd_vec_apply (N := 100000) (E := 1700000) scatter_S100000_S1700000x1_S1700000_n_0_0_1 rfl rfl rfl rfl
    (val_main_v9 (F := Ideal)) (val_main_v10 (F := Ideal) x1) (val_main_v8 (F := Ideal)) n).trans ?_
  unfold Cert.Gcn.deg
  refine congrArg₂ (· + ·) ?_ ?_
  · rw [val_main_v9_apply]; rfl
  · refine Finset.sum_congr (hits_of x1 _ (v10_at x1) n) (fun e _ => ?_)
    rw [val_main_v8_apply]; rfl

/-- The normalisation factor of node `n`. -/
theorem v15_at (n : Fin 100000) : val_main_v15 (F := Ideal) x1 (ix1 n) = Cert.Gcn.dinv (dstW x1) n := by
  rw [val_main_v15_apply, val_main_v13_apply, val_main_v14_apply, val_main_v12_apply, val_main_call0_v1_apply,
    v11_at]
  rfl

/-- The in-degree: the scatter-add of ones into zeros, read at node `n`. -/
theorem v52_at (n : Fin 100000) : val_main_v52 (F := Ideal) x1 (ix1 n) = Cert.Gcn.deg (dstW x1) n := by
  refine (scatterAdd_vec_apply (N := 100000) (E := 1700000) scatter_S100000_S1700000x1_S1700000_n_0_0_1 rfl rfl rfl rfl
    (val_main_v50 (F := Ideal)) (val_main_v51 (F := Ideal) x1) (val_main_v49 (F := Ideal)) n).trans ?_
  unfold Cert.Gcn.deg
  refine congrArg₂ (· + ·) ?_ ?_
  · rw [val_main_v50_apply]; rfl
  · refine Finset.sum_congr (hits_of x1 _ (v51_at x1) n) (fun e _ => ?_)
    rw [val_main_v49_apply]; rfl

/-- The normalisation factor of node `n`. -/
theorem v56_at (n : Fin 100000) : val_main_v56 (F := Ideal) x1 (ix1 n) = Cert.Gcn.dinv (dstW x1) n := by
  rw [val_main_v56_apply, val_main_v54_apply, val_main_v55_apply, val_main_v53_apply, val_main_call2_v1_apply,
    v52_at]
  rfl

/-! ## The factor of an edge -/

theorem v22_at (e : Fin 1700000) :
    val_main_v22 (F := Ideal) x1 (ix1 e) = Cert.Gcn.dinv (dstW x1) (Cert.Gcn.gRow (srcW x1 e)) := by
  refine (gather_vec_apply (N := 100000) (E := 1700000) (by decide) gather_S100000_S1700000x1_S1700000_n_0_n_n_0_1_1
    rfl rfl rfl rfl rfl rfl rfl (val_main_v15 (F := Ideal) x1) (val_main_v21 (F := Ideal) x1) e).trans ?_
  rw [v21_at, v15_at]
  rfl

theorem v29_at (e : Fin 1700000) :
    val_main_v29 (F := Ideal) x1 (ix1 e) = Cert.Gcn.dinv (dstW x1) (Cert.Gcn.gRow (dstW x1 e)) := by
  refine (gather_vec_apply (N := 100000) (E := 1700000) (by decide) gather_S100000_S1700000x1_S1700000_n_0_n_n_0_1_1
    rfl rfl rfl rfl rfl rfl rfl (val_main_v15 (F := Ideal) x1) (val_main_v28 (F := Ideal) x1) e).trans ?_
  rw [v28_at, v15_at]
  rfl

/-- The factor of edge `e`. -/
theorem v30_at (e : Fin 1700000) : val_main_v30 (F := Ideal) x1 (ix1 e) = Cert.Gcn.nrmE (srcW x1) (dstW x1) e := by
  rw [val_main_v30_apply, v22_at, v29_at]
  rfl

theorem v63_at (e : Fin 1700000) :
    val_main_v63 (F := Ideal) x1 (ix1 e) = Cert.Gcn.dinv (dstW x1) (Cert.Gcn.gRow (srcW x1 e)) := by
  refine (gather_vec_apply (N := 100000) (E := 1700000) (by decide) gather_S100000_S1700000x1_S1700000_n_0_n_n_0_1_1
    rfl rfl rfl rfl rfl rfl rfl (val_main_v56 (F := Ideal) x1) (val_main_v62 (F := Ideal) x1) e).trans ?_
  rw [v62_at, v56_at]
  rfl

theorem v70_at (e : Fin 1700000) :
    val_main_v70 (F := Ideal) x1 (ix1 e) = Cert.Gcn.dinv (dstW x1) (Cert.Gcn.gRow (dstW x1 e)) := by
  refine (gather_vec_apply (N := 100000) (E := 1700000) (by decide) gather_S100000_S1700000x1_S1700000_n_0_n_n_0_1_1
    rfl rfl rfl rfl rfl rfl rfl (val_main_v56 (F := Ideal) x1) (val_main_v69 (F := Ideal) x1) e).trans ?_
  rw [v69_at, v56_at]
  rfl

/-- The factor of edge `e`. -/
theorem v71_at (e : Fin 1700000) : val_main_v71 (F := Ideal) x1 (ix1 e) = Cert.Gcn.nrmE (srcW x1) (dstW x1) e := by
  rw [val_main_v71_apply, v63_at, v70_at]
  rfl

theorem v39_at (e : Fin 1700000) (c : Fin 64) :
    val_main_v39 (F := Ideal) x1 (ix2 e c) = Cert.Gcn.nrmE (srcW x1) (dstW x1) e := by
  have h1 : idx_main_v39 (ix2 e c) = ix2 e 0 := (funext fun a => Fin.ext (by match a with | ⟨0, _⟩ => rfl | ⟨1, _⟩ => rfl))
  have h2 : idx_main_v38 (ix2 e 0) = ix1 e := (funext fun a => Fin.ext (by match a with | ⟨0, _⟩ => rfl))
  rw [val_main_v39_apply, h1, val_main_v38_apply, h2, v30_at]

theorem v80_at (e : Fin 1700000) (c : Fin 32) :
    val_main_v80 (F := Ideal) x1 (ix2 e c) = Cert.Gcn.nrmE (srcW x1) (dstW x1) e := by
  have h1 : idx_main_v80 (ix2 e c) = ix2 e 0 := (funext fun a => Fin.ext (by match a with | ⟨0, _⟩ => rfl | ⟨1, _⟩ => rfl))
  have h2 : idx_main_v79 (ix2 e 0) = ix1 e := (funext fun a => Fin.ext (by match a with | ⟨0, _⟩ => rfl))
  rw [val_main_v80_apply, h1, val_main_v79_apply, h2, v71_at]

/-! ## The first layer -/

/-- The first dense layer. -/
theorem v7_at (n : Fin 100000) (c : Fin 64) : val_main_v7 (F := Ideal) x0 x2 (ix2 n c) = Cert.Gcn.h1 x0 x2 n c := by
  rw [val_main_v7_apply]
  unfold Cert.Gcn.h1
  refine Finset.sum_congr rfl (fun k _ => ?_)
  have hl : lidx_main_v7 (ix2 n c) k = ix2 n k := (funext fun a => Fin.ext (by match a with | ⟨0, _⟩ => rfl | ⟨1, _⟩ => rfl))
  have hr : ridx_main_v7 (ix2 n c) k = ix2 k c := (funext fun a => Fin.ext (by match a with | ⟨0, _⟩ => rfl | ⟨1, _⟩ => rfl))
  rw [hl, hr]

/-- The dense layer's row read along edge `e`. -/
theorem v37_at (e : Fin 1700000) (c : Fin 64) :
    val_main_v37 (F := Ideal) x0 x1 x2 (ix2 e c) = Cert.Gcn.h1 x0 x2 (Cert.Gcn.gRow (srcW x1 e)) c := by
  refine (gather_rows_apply (N := 100000) (E := 1700000) (W := 64) (by decide)
    gather_S100000x64_S1700000x1_S1700000x64_1_0_n_n_0_1_164 rfl rfl rfl rfl rfl rfl rfl
    (val_main_v7 (F := Ideal) x0 x2) (val_main_v36 (F := Ideal) x1) e c).trans ?_
  rw [v36_at, v7_at]
  rfl

/-- The first layer's message along edge `e`. -/
theorem v40_at (e : Fin 1700000) (c : Fin 64) :
    val_main_v40 (F := Ideal) x0 x1 x2 (ix2 e c) = Cert.Gcn.msg1 x0 x2 (srcW x1) (dstW x1) e c := by
  rw [val_main_v40_apply, v37_at, v39_at]
  rfl

/-- The messages landing on node `d`. -/
theorem v43_at (d : Fin 100000) (c : Fin 64) :
    val_main_v43 (F := Ideal) x0 x1 x2 (ix2 d c)
      = Cert.Gcn.z0 + ∑ e ∈ Cert.Gcn.hits (dstW x1) d, Cert.Gcn.msg1 x0 x2 (srcW x1) (dstW x1) e c := by
  refine (scatterAdd_rows_apply (N := 100000) (E := 1700000) (W := 64) scatter_S100000x64_S1700000x1_S1700000x64_1_0_0_1
    rfl rfl rfl rfl (val_main_v41 (F := Ideal)) (val_main_v42 (F := Ideal) x1) (val_main_v40 (F := Ideal) x0 x1 x2) d c).trans ?_
  refine congrArg₂ (· + ·) ?_ ?_
  · rw [val_main_v41_apply]; rfl
  · exact Finset.sum_congr (hits_of x1 _ (v42_at x1) d) (fun e _ => v40_at x0 x1 x2 e c)

/-- The first bias, broadcast along the nodes. -/
theorem v45_at (d : Fin 100000) (c : Fin 64) : val_main_v45 (F := Ideal) x3 (ix2 d c) = x3 (ix1 c) := by
  rw [val_main_v45_apply, val_main_v44_apply]
  exact congrArg x3 (funext fun a => Fin.ext (by match a with | ⟨0, _⟩ => rfl))

/-- The hidden activation. -/
theorem v47_at (d : Fin 100000) (c : Fin 64) :
    val_main_v47 (F := Ideal) x0 x1 x2 x3 (ix2 d c) = Cert.Gcn.r1 x0 x2 x3 (srcW x1) (dstW x1) d c := by
  rw [val_main_v47_apply, val_main_v46_apply, v43_at, v45_at, val_main_call1_v0_apply]
  rfl

/-! ## The second layer -/

/-- The second dense layer. -/
theorem v48_at (d : Fin 100000) (c : Fin 32) :
    val_main_v48 (F := Ideal) x0 x1 x2 x3 x4 (ix2 d c) = Cert.Gcn.h2r x0 x2 x3 x4 (srcW x1) (dstW x1) d c := by
  rw [val_main_v48_apply]
  unfold Cert.Gcn.h2r
  refine Finset.sum_congr rfl (fun k _ => ?_)
  have hl : lidx_main_v48 (ix2 d c) k = ix2 d k := (funext fun a => Fin.ext (by match a with | ⟨0, _⟩ => rfl | ⟨1, _⟩ => rfl))
  have hr : ridx_main_v48 (ix2 d c) k = ix2 k c := (funext fun a => Fin.ext (by match a with | ⟨0, _⟩ => rfl | ⟨1, _⟩ => rfl))
  rw [hl, hr, v47_at]

/-- The second dense layer's row read along edge `e`. -/
theorem v78_at (e : Fin 1700000) (c : Fin 32) :
    val_main_v78 (F := Ideal) x0 x1 x2 x3 x4 (ix2 e c)
      = Cert.Gcn.h2r x0 x2 x3 x4 (srcW x1) (dstW x1) (Cert.Gcn.gRow (srcW x1 e)) c := by
  refine (gather_rows_apply (N := 100000) (E := 1700000) (W := 32) (by decide)
    gather_S100000x32_S1700000x1_S1700000x32_1_0_n_n_0_1_132 rfl rfl rfl rfl rfl rfl rfl
    (val_main_v48 (F := Ideal) x0 x1 x2 x3 x4) (val_main_v77 (F := Ideal) x1) e c).trans ?_
  rw [v77_at, v48_at]
  rfl

/-- The second layer's message along edge `e`. -/
theorem v81_at (e : Fin 1700000) (c : Fin 32) :
    val_main_v81 (F := Ideal) x0 x1 x2 x3 x4 (ix2 e c) = Cert.Gcn.msg2 x0 x2 x3 x4 (srcW x1) (dstW x1) e c := by
  rw [val_main_v81_apply, v78_at, v80_at]
  rfl

/-- The second layer's messages landing on node `d`. -/
theorem v84_at (d : Fin 100000) (c : Fin 32) :
    val_main_v84 (F := Ideal) x0 x1 x2 x3 x4 (ix2 d c)
      = Cert.Gcn.z0 + ∑ e ∈ Cert.Gcn.hits (dstW x1) d, Cert.Gcn.msg2 x0 x2 x3 x4 (srcW x1) (dstW x1) e c := by
  refine (scatterAdd_rows_apply (N := 100000) (E := 1700000) (W := 32) scatter_S100000x32_S1700000x1_S1700000x32_1_0_0_1
    rfl rfl rfl rfl (val_main_v82 (F := Ideal)) (val_main_v83 (F := Ideal) x1) (val_main_v81 (F := Ideal) x0 x1 x2 x3 x4) d c).trans ?_
  refine congrArg₂ (· + ·) ?_ ?_
  · rw [val_main_v82_apply]; rfl
  · exact Finset.sum_congr (hits_of x1 _ (v83_at x1) d) (fun e _ => v81_at x0 x1 x2 x3 x4 e c)

/-- The second bias, broadcast along the nodes. -/
theorem v86_at (d : Fin 100000) (c : Fin 32) : val_main_v86 (F := Ideal) x5 (ix2 d c) = x5 (ix1 c) := by
  rw [val_main_v86_apply, val_main_v85_apply]
  exact congrArg x5 (funext fun a => Fin.ext (by match a with | ⟨0, _⟩ => rfl))

/-- THE REFERENCE'S RESULT READ AT `(d, c)`: the edge-scaled form of the two-layer graph convolution, as a function of
    the features, the weights, the biases and the source and destination words of the edges. -/
theorem ref_value (d : Fin 100000) (c : Fin 32) :
    ReadP.val_main_v87 (F := Ideal) x0 x1 x2 x3 x4 x5 (ix2 d c)
      = Cert.Gcn.outR x0 x2 x3 x4 x5 (srcW x1) (dstW x1) d c := by
  rw [val_main_v87_apply, v84_at, v86_at]
  rfl

end Cert.ReferenceIdeal.RefValue

end
-- ==== Proof.KRun.lean ====
/-
  The idealized kernel program, run: every weakly fair execution terminates without a fault, the six argument arrays end
  as launched, and the result array ends at the contents the program's last boundary gives it. The program is seven
  segments — three stretches of host operations, the first matrix-product region, a stretch, the second region, a last
  stretch — and the contents at each boundary are a fold from the launch memory: a stretch applies its operations, a
  region replaces its output array by what its grid points wrote back. This module only states the run with the result
  array read at the last boundary; the boundaries are opened elsewhere.
-/
import proofs.«145473_j49100066128394_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the seven segments from the launch memory: the final state holds every unscoped buffer at the last
    boundary's contents; read at the result array and at the six arguments (each argument walks back through the fold to
    the launch memory, no operation and no region writing it). -/
theorem run_last : θ_run defs (onTc (τ := τ) (main (F := F))) ⟨m, fun _ => 0, ρ⟩ (fun r => ∀ c : Dev nD,
      r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KV

end
-- ==== Proof.KHostLib.lean ====
/-
  Small readings used on the host side of the kernel program, each at one element.

  A column [E,1] made from a flat array [E] holds the flat array's entry e at (e,0); a splat of a scalar holds the
  scalar everywhere; the normalised index words (a negative word has the number of nodes added) are read entry by
  entry; and the composition "gather rows by normalised words, then add them into the rows the raw destination words
  name" is, at one element (d, j), the starting value plus the sum over the edges landing on d of the gathered array's
  element (row the edge reads, column j).
-/
import Idealize.ShloMosaic.PureOps.Ideal
import Idealize.ShloMosaic.PureOps.Ideal.Laws
import Idealize.ShloMosaic.Lib.ValueIdx
import Idealize.ShloMosaic.Lib.Pipeline.Value
import proofs.«145473_j49100066128394_2_alg».proof.Proof.LibRowOps
import proofs.«145473_j49100066128394_2_alg».proof.Proof.Spec

noncomputable section

open scoped BigOperators

namespace Cert.Gcn

open Idealize.ShloMosaic Idealize.ShloMosaic.ValueIdx Cert.RowOps

/-- The shapes of the edge lists and of a scalar. -/
abbrev SE : Shape := ⟨1, ![1700000]⟩
abbrev SE1 : Shape := ⟨2, ![1700000, 1]⟩
abbrev SZ : Shape := ⟨0, ![]⟩

/-- The column of a flat edge array, read at (e, 0). -/
theorem colE_apply {α : Type} (h : SE.BroadcastsInDim SE1 (![0] : Fin 1 → Fin 2)) (v : SE.Idx → α) (e : Fin 1700000) :
    broadcastInDim SE1 ![0] h v (ix2 e 0) = v (ix1 e) :=
  broadcastInDim_apply _ h v _ (ix1 e) (fun a => match a with
    | ⟨0, _⟩ => by show e.val = if (1700000 : Nat) = 1 then 0 else e.val; rw [if_neg (by decide)])

/-- A splat of a scalar, read anywhere. -/
theorem splat_apply {α : Type} {t : Shape} (h : SZ.BroadcastsInDim t (![] : Fin 0 → Fin t.rank)) (v : SZ.Idx → α) (j : t.Idx) :
    broadcastInDim t ![] h v j = v ix0 :=
  broadcastInDim_apply _ h v j ix0 (fun a => a.elim0)

/-- The column of normalised index words, read at (e, 0). -/
theorem nrmCol_apply (hE : SZ.BroadcastsInDim SE (![] : Fin 0 → Fin 1)) (hc : SE.BroadcastsInDim SE1 (![0] : Fin 1 → Fin 2))
    (v : IVec SE 32) (e : Fin 1700000) :
    broadcastInDim SE1 ![0] hc
        (select (cmpi .slt v (broadcastInDim SE ![] hE (constantI SZ 32 0#32)))
          (addi v (broadcastInDim SE ![] hE (constantI SZ 32 100000#32))) v) (ix2 e 0)
      = nrmW (v (ix1 e)) := by
  rw [colE_apply]
  rfl

/-- Rows gathered by one column of words and added into the rows another column names, read at (d, j). -/
theorem gatherScatter_apply {W : Nat}
    (dg : GatherDims ⟨2, ![100000, W]⟩ SE1 ⟨2, ![1700000, W]⟩)
    (hod : dg.offsetDims = [1]) (hcd : dg.collapsedSliceDims = [0]) (hob : dg.operandBatchingDims = [])
    (hsb : dg.startIndicesBatchingDims = []) (hsm : dg.startIndexMap = [0]) (hiv : dg.indexVectorDim = 1)
    (hss : dg.sliceSizes = ![1, W])
    (ds : ScatterDims ⟨2, ![100000, W]⟩ SE1 ⟨2, ![1700000, W]⟩)
    (huw : ds.updateWindowDims = [1]) (hiw : ds.insertedWindowDims = [0]) (hsd : ds.scatterDimsToOperandDims = [0])
    (hiv' : ds.indexVectorDim = 1)
    (z A : FVec Ideal ⟨2, ![100000, W]⟩ .f32) (si gi : IVec SE1 32) (d : Fin 100000) (j : Fin W) :
    Host.scatterAdd (F := Ideal) ds z si (Host.gather dg A gi) (ix2 d j)
      = z (ix2 d j) + ∑ e ∈ Finset.univ.filter (fun e : Fin 1700000 => scatterRow 100000 (si (ix2 e 0)) = some d),
          A (ix2 (gatherRow 100000 (by decide) (gi (ix2 e 0))) j) := by
  rw [scatterAdd_rows_apply ds huw hiw hsd hiv' z si _ d j]
  refine congrArg (z (ix2 d j) + ·) (Finset.sum_congr rfl fun e _ => ?_)
  exact gather_rows_apply (by decide) dg hod hcd hob hsb hsm hiv hss A gi e j

/-! ## The two host computations of the kernel program, as arrays and at one element -/

/-- The shapes of the node lists. -/
abbrev SN : Shape := ⟨1, ![100000]⟩
abbrev SN1 : Shape := ⟨2, ![100000, 1]⟩

/-- The column of a flat node array, read at (n, 0). -/
theorem colN_apply {α : Type} (h : SN.BroadcastsInDim SN1 (![0] : Fin 1 → Fin 2)) (v : SN.Idx → α) (n : Fin 100000) :
    broadcastInDim SN1 ![0] h v (ix2 n 0) = v (ix1 n) :=
  broadcastInDim_apply _ h v _ (ix1 n) (fun a => match a with
    | ⟨0, _⟩ => by show n.val = if (100000 : Nat) = 1 then 0 else n.val; rw [if_neg (by decide)])

/-- The in-degree array: ones added into a zero array at the rows the destination words name. -/
def degArr (hN : SZ.BroadcastsInDim SN (![] : Fin 0 → Fin 1)) (hE : SZ.BroadcastsInDim SE (![] : Fin 0 → Fin 1))
    (hc : SE.BroadcastsInDim SE1 (![0] : Fin 1 → Fin 2)) (ds : ScatterDims SN SE1 SE) (dst : IVec SE 32) : FVec Ideal SN .f32 :=
  Host.scatterAdd (F := Ideal) ds (broadcastInDim SN ![] hN (constant SZ .f32 0x00000000#32))
    (broadcastInDim SE1 ![0] hc dst) (broadcastInDim SE ![] hE (constant SZ .f32 0x3F800000#32))

/-- The in-degree array at node `n` is the in-degree of `n`. -/
theorem degArr_apply (hN : SZ.BroadcastsInDim SN (![] : Fin 0 → Fin 1)) (hE : SZ.BroadcastsInDim SE (![] : Fin 0 → Fin 1))
    (hc : SE.BroadcastsInDim SE1 (![0] : Fin 1 → Fin 2)) (ds : ScatterDims SN SE1 SE)
    (huw : ds.updateWindowDims = []) (hiw : ds.insertedWindowDims = [0]) (hsd : ds.scatterDimsToOperandDims = [0])
    (hiv : ds.indexVectorDim = 1) (dst : IVec SE 32) (n : Fin 100000) :
    degArr hN hE hc ds dst (ix1 n) = deg (fun e => dst (ix1 e)) n := by
  unfold degArr deg
  rw [scatterAdd_vec_apply ds huw hiw hsd hiv _ _ _ n]
  have hset : (Finset.univ.filter (fun e : Fin 1700000 =>
      scatterRow 100000 ((broadcastInDim SE1 ![0] hc dst) (ix2 e 0)) = some n)) = hits (fun e => dst (ix1 e)) n := by
    ext e
    simp only [hits, Finset.mem_filter, Finset.mem_univ, true_and]
    rw [colE_apply hc dst e]
  rw [hset]
  refine congrArg₂ (· + ·) ?_ (Finset.sum_congr rfl fun e _ => ?_)
  · exact splat_apply hN _ _
  · exact splat_apply hE _ _

/-- The normalisation column: the inverse square root of the in-degree where it is positive, zero elsewhere. -/
def dinvColArr (hN : SZ.BroadcastsInDim SN (![] : Fin 0 → Fin 1)) (hn : SN.BroadcastsInDim SN1 (![0] : Fin 1 → Fin 2))
    (g : FVec Ideal SN .f32) : FVec Ideal SN1 .f32 :=
  broadcastInDim SN1 ![0] hn
    (select (cmpf (F := Ideal) .ogt g (broadcastInDim SN ![] hN (constant SZ .f32 0x00000000#32))) (Host.rsqrt (F := Ideal) g)
      (broadcastInDim SN ![] hN (id (constant SZ .f32 0x00000000#32))))

/-- The normalisation column at (n, 0). -/
theorem dinvColArr_apply (hN : SZ.BroadcastsInDim SN (![] : Fin 0 → Fin 1)) (hn : SN.BroadcastsInDim SN1 (![0] : Fin 1 → Fin 2))
    (g : FVec Ideal SN .f32) (n : Fin 100000) :
    dinvColArr hN hn g (ix2 n 0) = dinvAt (g (ix1 n)) := by
  unfold dinvColArr
  rw [colN_apply]
  rfl

/-- Rows of `A` gathered along the edges and summed into the rows the edges land on, from a zero array. -/
def aggArr {W : Nat} (hz : SZ.BroadcastsInDim ⟨2, ![100000, W]⟩ (![] : Fin 0 → Fin 2)) (hE : SZ.BroadcastsInDim SE (![] : Fin 0 → Fin 1))
    (hc : SE.BroadcastsInDim SE1 (![0] : Fin 1 → Fin 2))
    (dg : GatherDims ⟨2, ![100000, W]⟩ SE1 ⟨2, ![1700000, W]⟩) (ds : ScatterDims ⟨2, ![100000, W]⟩ SE1 ⟨2, ![1700000, W]⟩)
    (A : FVec Ideal ⟨2, ![100000, W]⟩ .f32) (src dst : IVec SE 32) : FVec Ideal ⟨2, ![100000, W]⟩ .f32 :=
  Host.scatterAdd (F := Ideal) ds (broadcastInDim ⟨2, ![100000, W]⟩ ![] hz (constant SZ .f32 0x00000000#32))
    (broadcastInDim SE1 ![0] hc dst)
    (Host.gather dg A (broadcastInDim SE1 ![0] hc
      (select (cmpi .slt src (broadcastInDim SE ![] hE (constantI SZ 32 0#32)))
        (addi src (broadcastInDim SE ![] hE (constantI SZ 32 100000#32))) src)))

/-- The summed rows at (d, j): zero plus, over the edges landing on `d`, `A` at the row the edge reads, column `j`. -/
theorem aggArr_apply {W : Nat} (hz : SZ.BroadcastsInDim ⟨2, ![100000, W]⟩ (![] : Fin 0 → Fin 2)) (hE : SZ.BroadcastsInDim SE (![] : Fin 0 → Fin 1))
    (hc : SE.BroadcastsInDim SE1 (![0] : Fin 1 → Fin 2))
    (dg : GatherDims ⟨2, ![100000, W]⟩ SE1 ⟨2, ![1700000, W]⟩)
    (hod : dg.offsetDims = [1]) (hcd : dg.collapsedSliceDims = [0]) (hob : dg.operandBatchingDims = [])
    (hsb : dg.startIndicesBatchingDims = []) (hsm : dg.startIndexMap = [0]) (hiv : dg.indexVectorDim = 1)
    (hss : dg.sliceSizes = ![1, W])
    (ds : ScatterDims ⟨2, ![100000, W]⟩ SE1 ⟨2, ![1700000, W]⟩)
    (huw : ds.updateWindowDims = [1]) (hiw : ds.insertedWindowDims = [0]) (hsd : ds.scatterDimsToOperandDims = [0])
    (hiv' : ds.indexVectorDim = 1)
    (A : FVec Ideal ⟨2, ![100000, W]⟩ .f32) (src dst : IVec SE 32) (d : Fin 100000) (j : Fin W) :
    aggArr hz hE hc dg ds A src dst (ix2 d j)
      = z0 + ∑ e ∈ hits (fun e => dst (ix1 e)) d, A (ix2 (gRow (src (ix1 e))) j) := by
  unfold aggArr
  rw [gatherScatter_apply dg hod hcd hob hsb hsm hiv hss ds huw hiw hsd hiv' _ A _ _ d j]
  have hset : (Finset.univ.filter (fun e : Fin 1700000 =>
      scatterRow 100000 ((broadcastInDim SE1 ![0] hc dst) (ix2 e 0)) = some d)) = hits (fun e => dst (ix1 e)) d := by
    ext e
    simp only [hits, Finset.mem_filter, Finset.mem_univ, true_and]
    rw [colE_apply hc dst e]
  rw [hset]
  refine congrArg₂ (· + ·) ?_ (Finset.sum_congr rfl fun e _ => ?_)
  · exact splat_apply hz _ _
  · unfold gRow
    rw [nrmCol_apply]

/-! ## Three more readings: a node column spread over the columns, a bias spread over the rows, a vector as a one-row matrix -/

/-- A node column [100000,1] spread over `W` columns, read at (d, j): the column's entry of row `d`. -/
theorem colSpread_apply {α : Type} {W : Nat}
    (h : SN1.BroadcastsInDim ⟨2, ![100000, W]⟩ (![0, 1] : Fin 2 → Fin 2)) (v : SN1.Idx → α) (d : Fin 100000) (j : Fin W) :
    broadcastInDim ⟨2, ![100000, W]⟩ ![0, 1] h v (ix2 d j) = v (ix2 d 0) :=
  broadcastInDim_apply _ h v _ (ix2 d 0) (fun a => match a with
    | ⟨0, _⟩ => by show d.val = if (100000 : Nat) = 1 then 0 else d.val; rw [if_neg (by decide)]
    | ⟨1, _⟩ => by show (0 : Nat) = if (1 : Nat) = 1 then 0 else j.val; rw [if_pos rfl])

/-- A bias vector [32] made a row [1,32] and spread over the 100000 rows, read at (d, j): the bias entry `j`. -/
theorem rowSpread32_apply {α : Type}
    (h1 : (⟨1, ![32]⟩ : Shape).BroadcastsInDim ⟨2, ![1, 32]⟩ (![1] : Fin 1 → Fin 2))
    (h2 : (⟨2, ![1, 32]⟩ : Shape).BroadcastsInDim ⟨2, ![100000, 32]⟩ (![0, 1] : Fin 2 → Fin 2))
    (b : (⟨1, ![32]⟩ : Shape).Idx → α) (d : Fin 100000) (j : Fin 32) :
    broadcastInDim ⟨2, ![100000, 32]⟩ ![0, 1] h2 (broadcastInDim ⟨2, ![1, 32]⟩ ![1] h1 b) (ix2 d j) = b (ix1 j) := by
  rw [broadcastInDim_apply _ h2 _ (ix2 d j) (ix2 0 j) (fun a => match a with
    | ⟨0, _⟩ => by show (0 : Nat) = if (1 : Nat) = 1 then 0 else d.val; rw [if_pos rfl]
    | ⟨1, _⟩ => by show j.val = if (32 : Nat) = 1 then 0 else j.val; rw [if_neg (by decide)])]
  exact broadcastInDim_apply _ h1 b (ix2 0 j) (ix1 j) (fun a => match a with
    | ⟨0, _⟩ => by show j.val = if (32 : Nat) = 1 then 0 else j.val; rw [if_neg (by decide)])

/-- A vector [64] recast as a one-row matrix [1,64], read at (0, k): the vector's entry `k`. -/
theorem unitRow64_apply {α : Type} (h : (⟨1, ![64]⟩ : Shape).ShapeCasts ⟨2, ![1, 64]⟩)
    (v : (⟨1, ![64]⟩ : Shape).Idx → α) (k : Fin 64) :
    shapeCast ⟨2, ![1, 64]⟩ v h (ix2 0 k) = v (ix1 k) := by
  refine (shapeCast_addUnit_apply ![64] v h (ix2 0 k)).trans (congrArg v ?_)
  funext a
  match a with
  | ⟨0, _⟩ => rfl

end Cert.Gcn

end
-- ==== Proof.KHost.lean ====
/-
  The host operations of the kernel program between its boundaries, read off the fold.

  The program's contents at a boundary are a fold over the operations before it. This module opens each stretch once:
  the two edge-word lists and the normalisation column before the first region (the column is the inverse square root of
  the in-degree array built from the destination words); after the first region the first layer's aggregate (rows of
  the region's output gathered along the edges and summed where they land) and the bias as a row; after the second
  region the result (the node factor times the second aggregate, plus the second bias). Arrays no operation writes keep
  their launch contents.
-/
import proofs.«145473_j49100066128394_2_alg».proof.Proof.Gen.KernelIdeal.Frame
import proofs.«145473_j49100066128394_2_alg».proof.Proof.KHostLib
import proofs.«145473_j49100066128394_2_alg».proof.Proof.RefRead

set_option maxRecDepth 16384

noncomputable section

namespace Cert.KernelIdeal.KV

open Cert.KernelIdeal Cert.KernelIdeal.Gen
open Idealize.ShloMosaic Idealize.ShloMosaic.TcCoe Idealize.ShloMosaic.ValueIdx Idealize.ShloMosaic.StableHlo
open Idealize.SL.Sem
open Cert.Gcn

variable (m : (ℓ : Loc nD τ sig) → Buf (Elt Ideal) ℓ) (ρ : Dev nD → PrngReg) (c : Dev nD)

/-- The source words of the edges, as an array computed from the edge list argument. -/
def srcArr (x1 : IVec S2x1600000 32) : IVec S1700000 32 := Cert.ReferenceIdeal.ReadP.val_main_v3 (F := Ideal) x1
/-- The destination words of the edges. -/
def dstArr (x1 : IVec S2x1600000 32) : IVec S1700000 32 := Cert.ReferenceIdeal.ReadP.val_main_v6 (F := Ideal) x1

/-- The in-degree array of the program. -/
abbrev degK (x1 : IVec S2x1600000 32) : FVec Ideal S100000 .f32 :=
  degArr Gen.bcast_S_S100000 Gen.bcast_S_S1700000 Gen.bcast_S1700000_S1700000x1_0 scatter_S100000_S1700000x1_S1700000_n_0_0_1 (dstArr x1)

/-- The result array the kernel program ends with, as a function of the launch memory: the node-scaled form of the two
    layers, over the edge words computed from the edge list argument. -/
def kOut (m : (ℓ : Loc nD τ sig) → Buf (Elt Ideal) ℓ) (c : Dev nD) : Buf (Elt Ideal) ((c.tc : Thread nD τ).loc main_v43) :=
  fun i => Cert.Gcn.outK (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))
    (fun e => srcArr (m ((c.tc : Thread nD τ).loc main_arg1)) (ix1 e)) (fun e => dstArr (m ((c.tc : Thread nD τ).loc main_arg1)) (ix1 e))
    ⟨(i 0).val, (i 0).isLt⟩ ⟨(i 1).val, (i 1).isLt⟩

/-! ## Before the first region -/

theorem W3_v3 : W3 m ρ c (Proc.devRef .tc main_v3) = srcArr (m ((c.tc : Thread nD τ).loc main_arg1)) := by
  show StableHlo.after hostOps0_2 (StableHlo.after hostOps0_1 (StableHlo.after hostOps0 (W0 m ρ c))) (Proc.devRef .tc main_v3) = _
  after_results_simp <;> rfl

theorem W3_v6 : W3 m ρ c (Proc.devRef .tc main_v6) = dstArr (m ((c.tc : Thread nD τ).loc main_arg1)) := by
  show StableHlo.after hostOps0_2 (StableHlo.after hostOps0_1 (StableHlo.after hostOps0 (W0 m ρ c))) (Proc.devRef .tc main_v6) = _
  after_results_simp <;> rfl

/-- The first stretch over any contents: the in-degree array, its comparison with zero, its inverse square root. -/
theorem pre_v10 (Wv : Valuation τ sig (Elt Ideal)) : StableHlo.after (hostOps0 (F := Ideal)) Wv (Proc.devRef .tc main_v10)
    = degK (Wv (Proc.devRef .tc main_arg1)) := by
  after_results_simp <;> rfl

theorem pre_v12 (Wv : Valuation τ sig (Elt Ideal)) : StableHlo.after (hostOps0 (F := Ideal)) Wv (Proc.devRef .tc main_v12)
    = cmpf (F := Ideal) .ogt (degK (Wv (Proc.devRef .tc main_arg1)))
        (broadcastInDim S100000 ![] Gen.bcast_S_S100000 (constant S_ .f32 0x00000000#32)) := by
  after_results_simp <;> rfl

theorem pre_v13 (Wv : Valuation τ sig (Elt Ideal)) : StableHlo.after (hostOps0 (F := Ideal)) Wv (Proc.devRef .tc main_v13)
    = Host.rsqrt (F := Ideal) (degK (Wv (Proc.devRef .tc main_arg1))) := by
  after_results_simp <;> rfl

theorem pre_cst2 (Wv : Valuation τ sig (Elt Ideal)) : StableHlo.after (hostOps0 (F := Ideal)) Wv (Proc.devRef .tc main_cst_2)
    = constant (F := Ideal) S_ .f32 0x00000000#32 := by
  after_results_simp <;> rfl

/-- The select of the outlined where-call and the column made of it, over any contents. -/
theorem pre_v15 (Wv : Valuation τ sig (Elt Ideal)) :
    StableHlo.after (hostOps0_2 (F := Ideal)) (StableHlo.after (hostOps0_1 (F := Ideal)) Wv) (Proc.devRef .tc main_v15)
    = broadcastInDim S100000x1 ![0] Gen.bcast_S100000_S100000x1_0
        (select (Wv (Proc.devRef .tc main_v12)) (Wv (Proc.devRef .tc main_v13))
          (broadcastInDim S100000 ![] Gen.bcast_S_S100000 (id (Wv (Proc.devRef .tc main_cst_2))))) := by
  after_results_simp <;> rfl

theorem W3_v15 : W3 m ρ c (Proc.devRef .tc main_v15)
    = dinvColArr Gen.bcast_S_S100000 Gen.bcast_S100000_S100000x1_0 (degK (m ((c.tc : Thread nD τ).loc main_arg1))) := by
  show StableHlo.after hostOps0_2 (StableHlo.after hostOps0_1 (StableHlo.after hostOps0 (W0 m ρ c))) (Proc.devRef .tc main_v15) = _
  rw [pre_v15, pre_v12, pre_v13, pre_cst2]
  rfl

theorem W3_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp <;> rfl

theorem W3_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp <;> rfl

theorem W3_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp <;> rfl

theorem W3_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp <;> rfl

theorem W3_arg5 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp <;> rfl

/-! ## Between the regions: over any contents `Wv` at the first region's exit -/

variable (Wv : Valuation τ sig (Elt Ideal))

theorem mid_v26 : StableHlo.after (hostOps1 (F := Ideal)) Wv (Proc.devRef .tc main_v26)
    = aggArr bcast_S_S100000x64 bcast_S_S1700000 bcast_S1700000_S1700000x1_0
        gather_S100000x64_S1700000x1_S1700000x64_1_0_n_n_0_1_164 scatter_S100000x64_S1700000x1_S1700000x64_1_0_0_1
        (Wv (Proc.devRef .tc main_v16)) (Wv (Proc.devRef .tc main_v3)) (Wv (Proc.devRef .tc main_v6)) := by
  after_results_simp <;> rfl

theorem mid_v27 : StableHlo.after (hostOps1 (F := Ideal)) Wv (Proc.devRef .tc main_v27)
    = shapeCast S1x64 (Wv (Proc.devRef .tc main_arg3)) shapeCasts_S64_S1x64 := by
  after_results_simp <;> rfl

theorem mid_keep (b : Ref sig .tc) (hb : b ∈ [main_v15, main_arg4, main_v3, main_v6, main_arg5]) :
    StableHlo.after (hostOps1 (F := Ideal)) Wv (Proc.devRef .tc b) = Wv (Proc.devRef .tc b) := by
  simp only [List.mem_cons, List.mem_nil_iff, or_false] at hb
  rcases hb with rfl | rfl | rfl | rfl | rfl <;> (after_results_simp <;> rfl)

/-! ## After the second region: over any contents `Wv` at its exit -/

theorem tail_v43 : StableHlo.after (hostOps2 (F := Ideal)) Wv (Proc.devRef .tc main_v43)
    = addf (mulf (broadcastInDim S100000x32 ![0, 1] bcast_S100000x1_S100000x32_0_1 (Wv (Proc.devRef .tc main_v15)))
        (aggArr bcast_S_S100000x32 bcast_S_S1700000 bcast_S1700000_S1700000x1_0
          gather_S100000x32_S1700000x1_S1700000x32_1_0_n_n_0_1_132 scatter_S100000x32_S1700000x1_S1700000x32_1_0_0_1
          (Wv (Proc.devRef .tc main_v28)) (Wv (Proc.devRef .tc main_v3)) (Wv (Proc.devRef .tc main_v6))))
      (broadcastInDim S100000x32 ![0, 1] bcast_S1x32_S100000x32_0_1
        (broadcastInDim S1x32 ![1] bcast_S32_S1x32_1 (Wv (Proc.devRef .tc main_arg5)))) := by
  after_results_simp <;> rfl

end Cert.KernelIdeal.KV

end
-- ==== Proof.KRegionLib.lean ====
/-
  Index-level readings of the layout operations the two matmul kernels share: a column of row factors spread
  over the columns of a block, a row of biases spread over the rows of a block, and the zero offsets of a
  whole-block access.
-/
import proofs.«145473_j49100066128394_2_alg».proof.KernelIdeal
import Idealize.ShloMosaic.Lib.Pipeline.Value
import Idealize.ShloMosaic.Lib.ValueIdx
import Idealize.ShloMosaic.Lib.ValueIdxCoords
import Idealize.ShloMosaic.PureOps.Ideal.Laws

noncomputable section

open scoped BigOperators

namespace Cert.KernelIdeal.KV

open Cert.KernelIdeal Idealize.ShloMosaic Idealize.ShloMosaic.ValueIdx

/-- The zero offsets of a whole-block access, however they are spelt. -/
theorem hz2 : (![0, 0] : Fin 2 → Nat) = fun _ => 0 := funext fun a => by fin_cases a <;> rfl

/-- A [5000,1] column spread over 64 columns: entry (r, j) is the column's entry r. -/
theorem bcol_64 {α : Type} (x : S5000x1.Idx → α) (h : S5000x1.Broadcasts S5000x64) (r : Fin 5000) (j : Fin 64) :
    broadcastTo S5000x64 x h (ix2 r j) = x (ix2 r 0) := by
  refine broadcastTo_apply x h (ix2 r j) (ix2 r 0) fun a => ?_
  match a with
  | ⟨0, _⟩ => rfl
  | ⟨1, _⟩ => rfl

/-- A [5000,1] column spread over 32 columns: entry (r, j) is the column's entry r. -/
theorem bcol_32 {α : Type} (x : S5000x1.Idx → α) (h : S5000x1.Broadcasts S5000x32) (r : Fin 5000) (j : Fin 32) :
    broadcastTo S5000x32 x h (ix2 r j) = x (ix2 r 0) := by
  refine broadcastTo_apply x h (ix2 r j) (ix2 r 0) fun a => ?_
  match a with
  | ⟨0, _⟩ => rfl
  | ⟨1, _⟩ => rfl

/-- A [1,64] row spread over 5000 rows: entry (r, j) is the row's entry j. -/
theorem brow_64 {α : Type} (x : S1x64.Idx → α) (h : S1x64.Broadcasts S5000x64) (r : Fin 5000) (j : Fin 64) :
    broadcastTo S5000x64 x h (ix2 r j) = x (ix2 0 j) := by
  refine broadcastTo_apply x h (ix2 r j) (ix2 0 j) fun a => ?_
  match a with
  | ⟨0, _⟩ => rfl
  | ⟨1, _⟩ => rfl

end Cert.KernelIdeal.KV

end
-- ==== Proof.KRegion0.lean ====
/-
  The first matmul kernel read as one function of whole arrays. Each of the twenty grid points loads rows
  5000 t … 5000 t + 4999 of the features and of the column of row factors, and the whole weight matrix; it stores the
  product of its rows with the weights, every row multiplied by that row's factor. The blocks tile the rows, so the
  output array ends holding, at entry (n, j), the sum over k of x(n, k) · W(k, j), times the factor of row n.
-/
import proofs.«145473_j49100066128394_2_alg».proof.Proof.Gen.KernelIdeal.Frame
import proofs.«145473_j49100066128394_2_alg».proof.Proof.KRegionLib
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

open scoped BigOperators

namespace Cert.KernelIdeal.KV

open Cert.KernelIdeal Cert.KernelIdeal.Gen Idealize.ShloMosaic Idealize.ShloMosaic.TcCoe Idealize.ShloMosaic.ValueIdx
open Idealize.ShloMosaic.Pipeline (Dat)

/-- The block product read at an entry: row p of the left block against column q of the right block. -/
theorem mm0_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ =>
      show (dot_S5000x128_S128x64_S5000x64_1_0_0_1_n_n.lhsIdx (ix2 p q) _ 0).val = p.val
      unfold DotDims.lhsIdx
      rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
      rfl
    | ⟨1, _⟩ => exact (dot_S5000x128_S128x64_S5000x64_1_0_0_1_n_n.lhsIdx_val_of_single rfl (ix2 p q) _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl (ix2 p q) _).trans hk
    | ⟨1, _⟩ =>
      show (dot_S5000x128_S128x64_S5000x64_1_0_0_1_n_n.rhsIdx (ix2 p q) _ 1).val = q.val
      unfold DotDims.rhsIdx
      rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
      rfl)
  rw [el, er]

/-- The body's arithmetic at an entry of the block: the row of the left block against the column of the weights,
    times the row's factor. -/
theorem pay0_apply (x0 : Vec Ideal S5000x128 .f32) (x1 : Vec Ideal S128x64 .f32) (x2 : Vec Ideal S5000x1 .f32) (r : Fin 5000) (j : Fin 64) :
    (k0_pay1 (F := Ideal) x0 x1 x2 : S5000x64.Idx → EReal) (ix2 r j)
      = (∑ k : Fin 128, (x0 : S5000x128.Idx → EReal) (ix2 r k) * (x1 : S128x64.Idx → EReal) (ix2 k j)) * (x2 : S5000x1.Idx → EReal) (ix2 r 0) := by
  unfold k0_pay1
  rw [mulf_apply, mm0_apply, bcol_64, shapeCast_self]
  rfl

/-- Region 0's result as one function of the three arrays it reads, entry by entry. -/
def G0 (a0 : S100000x128.Idx → EReal) (a1 : S128x64.Idx → EReal) (a2 : S100000x1.Idx → EReal) : S100000x64.Idx → EReal :=
  fun i => (∑ k : Fin 128, a0 (ix2 (⟨(i 0).val, (i 0).isLt⟩ : Fin 100000) k) * a1 (ix2 k (⟨(i 1).val, (i 1).isLt⟩ : Fin 64)))
    * a2 (ix2 (⟨(i 0).val, (i 0).isLt⟩ : Fin 100000) (0 : Fin 1))

theorem G0_apply (a0 : S100000x128.Idx → EReal) (a1 : S128x64.Idx → EReal) (a2 : S100000x1.Idx → EReal) (i : S100000x64.Idx)
    (n : Fin 100000) (j : Fin 64) (h0 : (i 0).val = n.val) (h1 : (i 1).val = j.val) :
    G0 a0 a1 a2 i = (∑ k : Fin 128, a0 (ix2 n k) * a1 (ix2 k j)) * a2 (ix2 n 0) := by
  have e : i = ix2 n j := funext fun a => Fin.ext (by
    match a with
    | ⟨0, _⟩ => exact h0
    | ⟨1, _⟩ => exact h1)
  subst e
  rfl

/-- The printed index maps, decided once over the twenty points: the row-blocked windows are at block t, the whole-array
    window at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Block t of the features is rows 5000 t … 5000 t + 4999 of the array. -/
theorem iblk0_0_apply (c : Dev nD) (t : Fin cfg0.N) (r : Fin 5000) (k : Fin 128) (n : Fin 100000) (hn : n.val = t.val * 5000 + r.val) :
    (iblk0 (F := Ideal) V c 0 t : S5000x128.Idx → EReal) (ix2 r k) = (V c main_arg0 : S100000x128.Idx → EReal) (ix2 n k) := by
  obtain ⟨e00, e01, -⟩ := idx_facts0 t
  show (V c main_arg0 : S100000x128.Idx → EReal) (((cfg0.win 0).blk t).view.emb (ix2 r k)) = _
  refine congrArg _ (funext fun a => Fin.ext ?_)
  match a with
  | ⟨0, _⟩ => show win0_0.index t (0 : Fin 2) * 5000 + 1 * r.val = n.val; omega
  | ⟨1, _⟩ => show win0_0.index t (1 : Fin 2) * 128 + 1 * k.val = k.val; omega

/-- The weights' block is the whole array at every point. -/
theorem iblk0_1_apply (c : Dev nD) (t : Fin cfg0.N) (k : Fin 128) (j : Fin 64) :
    (iblk0 (F := Ideal) V c 1 t : S128x64.Idx → EReal) (ix2 k j) = (V c main_arg2 : S128x64.Idx → EReal) (ix2 k j) := by
  obtain ⟨-, -, e10, e11, -⟩ := idx_facts0 t
  show (V c main_arg2 : S128x64.Idx → EReal) (((cfg0.win 1).blk t).view.emb (ix2 k j)) = _
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * j.val = j.val; omega

/-- Block t of the column of row factors is its rows 5000 t … 5000 t + 4999. -/
theorem iblk0_2_apply (c : Dev nD) (t : Fin cfg0.N) (r : Fin 5000) (n : Fin 100000) (hn : n.val = t.val * 5000 + r.val) :
    (iblk0 (F := Ideal) V c 2 t : S5000x1.Idx → EReal) (ix2 r 0) = (V c main_v15 : S100000x1.Idx → EReal) (ix2 n 0) := by
  obtain ⟨-, -, -, -, e20, e21, -⟩ := idx_facts0 t
  show (V c main_v15 : S100000x1.Idx → EReal) (((cfg0.win 2).blk t).view.emb (ix2 r 0)) = _
  refine congrArg _ (funext fun a => Fin.ext ?_)
  match a with
  | ⟨0, _⟩ => show win0_2.index t (0 : Fin 2) * 5000 + 1 * r.val = n.val; omega
  | ⟨1, _⟩ => show win0_2.index t (1 : Fin 2) * 1 + 1 * 0 = 0; omega

/-- What point t writes back is block t of `G0` of the arrays as the region finds them. -/
theorem flushed0_eq (c : Dev nD) (t : Fin cfg0.N) :
    (dat0 (F := Ideal) V c).flushed 3 t
      = ((cfg0.win 3).blk t).view.read (Elt Ideal) (G0 (V c main_arg0) (V c main_arg2) (V c main_v15)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x64) hz2, View.ld_unit_zero (S := S5000x1) hz2]
  obtain ⟨-, -, -, -, -, -, e30, e31⟩ := idx_facts0 t
  have ht : t.val < 20 := lt_of_lt_of_eq t.isLt N_0
  funext y
  obtain ⟨r, j, rfl⟩ : ∃ (r : Fin 5000) (j : Fin 64), y = ix2 r j := ⟨y 0, y 1, eq_ix2 y⟩
  have hr : r.val < 5000 := r.isLt
  obtain ⟨n, hn⟩ : ∃ n : Fin 100000, n.val = t.val * 5000 + r.val := ⟨⟨t.val * 5000 + r.val, by omega⟩, rfl⟩
  refine (pay0_apply _ _ _ r j).trans ?_
  show _ = G0 (V c main_arg0) (V c main_arg2) (V c main_v15) (((cfg0.win 3).blk t).view.emb (ix2 r j))
  rw [G0_apply _ _ _ _ n j
    (by show win0_3.index t (0 : Fin 2) * 5000 + 1 * r.val = n.val; omega)
    (by show win0_3.index t (1 : Fin 2) * 64 + 1 * j.val = j.val; omega)]
  rw [iblk0_2_apply V c t r n hn]
  refine congrArg (· * _) (Finset.sum_congr rfl fun k _ => ?_)
  rw [iblk0_0_apply V c t r k n hn, iblk0_1_apply V c t k j]

/-- Every row is in the block of the point its number divided by 5000 names. -/
theorem cover0 (i : S100000x64.Idx) : ∃ t : Fin cfg0.N, (cfg0.win 3).flush t = true ∧ i ∈ ((cfg0.win 3).blk t).view.set := by
  have h0 : (i 0).val < 100000 := (i 0).isLt
  have h1 : (i 1).val < 64 := (i 1).isLt
  have hN : cfg0.N = 20 := N_0
  obtain ⟨t, htv⟩ : ∃ t : Fin cfg0.N, t.val = (i 0).val / 5000 := ⟨⟨(i 0).val / 5000, by rw [hN]; omega⟩, rfl⟩
  refine ⟨t, flush0_3 t, ?_⟩
  obtain ⟨-, -, -, -, -, -, e30, e31⟩ := idx_facts0 t
  show i ∈ ((View.whole main_v16).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- Region 0 leaves `G0` of the arrays it reads in its output array. -/
theorem region0_whole (c : Dev nD) :
    ((dat0 (F := Ideal) V c).arrAt 3 cfg0.N : S100000x64.Idx → EReal) = G0 (V c main_arg0) (V c main_arg2) (V c main_v15) :=
  (dat0 V c).arrAt_eq_of_cover 3 _ (fun t _ => flushed0_eq V c t) cover0

/-- Entry (n, j) of the features times the weights, the row scaled by its factor: region 0's result at that entry,
    as a function of the three arrays. -/
abbrev K0 (x : S100000x128.Idx → EReal) (w : S128x64.Idx → EReal) (d : S100000x1.Idx → EReal) (n : Fin 100000) (j : Fin 64) : EReal :=
  (∑ k : Fin 128, x (ix2 n k) * w (ix2 k j)) * d (ix2 n 0)

/-- Region 0 leaves in its output array (window 3, main_v16) the product x·W1 with every row scaled by that row's entry
    of the [100000,1] column main_v15. -/
theorem region0_arr (c : Dev nD) (n : Fin 100000) (j : Fin 64) :
    ((Gen.dat0 (F := Ideal) V c).arrAt 3 cfg0.N : S100000x64.Idx → EReal) (ix2 n j)
      = K0 (V c main_arg0) (V c main_arg2) (V c main_v15) n j :=
  (congrFun (region0_whole V c) (ix2 n j)).trans (G0_apply _ _ _ _ n j rfl rfl)

/-- The same with the three arrays named: whatever they are known to be. -/
theorem region0_arr_of (c : Dev nD) (n : Fin 100000) (j : Fin 64)
    (x : S100000x128.Idx → EReal) (w : S128x64.Idx → EReal) (d : S100000x1.Idx → EReal)
    (hx : V c main_arg0 = x) (hw : V c main_arg2 = w) (hd : V c main_v15 = d) :
    ((Gen.dat0 (F := Ideal) V c).arrAt 3 cfg0.N : S100000x64.Idx → EReal) (ix2 n j)
      = (∑ k : Fin 128, x (ix2 n k) * w (ix2 k j)) * d (ix2 n 0) := by
  subst hx hw hd
  exact region0_arr V c n j

end Cert.KernelIdeal.KV

end
-- ==== Proof.KRegion1.lean ====
/-
  The second matmul kernel read as one function of whole arrays. Each of the twenty grid points loads rows
  5000 t … 5000 t + 4999 of the summed features and of the column of row factors, the whole bias row and the whole
  weight matrix; it scales each row by its factor, adds the bias, clips at zero, multiplies by the weights, and scales
  each row of the product by the row's factor again. The blocks tile the rows, so the output array ends holding, at
  entry (n, j), the sum over k of max(a(n, k) · d(n) + b(k), 0) · W(k, j), times d(n).
-/
import proofs.«145473_j49100066128394_2_alg».proof.Proof.Gen.KernelIdeal.Frame
import proofs.«145473_j49100066128394_2_alg».proof.Proof.KRegionLib
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

open scoped BigOperators

namespace Cert.KernelIdeal.KV

open Cert.KernelIdeal Cert.KernelIdeal.Gen Idealize.ShloMosaic Idealize.ShloMosaic.TcCoe Idealize.ShloMosaic.ValueIdx
open Idealize.ShloMosaic.Pipeline (Dat)

/-- The block product read at an entry: row p of the left block against column q of the right block. -/
theorem mm1_apply (l : FVec Ideal S5000x64 .bf16) (r : FVec Ideal S64x32 .bf16) (p : Fin 5000) (q : Fin 32) :
    matmul dot_S5000x64_S64x32_S5000x32_1_0_0_1_n_n none l r (constant (F := Ideal) S5000x32 .f32 0x00000000#32) (ix2 p q)
      = ∑ k : Fin 64, l (ix2 p k) * r (ix2 k q) := by
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ =>
      show (dot_S5000x64_S64x32_S5000x32_1_0_0_1_n_n.lhsIdx (ix2 p q) _ 0).val = p.val
      unfold DotDims.lhsIdx
      rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
      rfl
    | ⟨1, _⟩ => exact (dot_S5000x64_S64x32_S5000x32_1_0_0_1_n_n.lhsIdx_val_of_single rfl (ix2 p q) _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (dot_S5000x64_S64x32_S5000x32_1_0_0_1_n_n.rhsIdx_val_of_single rfl (ix2 p q) _).trans hk
    | ⟨1, _⟩ =>
      show (dot_S5000x64_S64x32_S5000x32_1_0_0_1_n_n.rhsIdx (ix2 p q) _ 1).val = q.val
      unfold DotDims.rhsIdx
      rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
      rfl)
  rw [el, er]

/-- The body's arithmetic at an entry of the block: the row of the sums scaled by its factor, the bias added, clipped
    at zero, against the column of the weights, the result scaled by the row's factor. -/
theorem pay1_apply (x0 : Vec Ideal S5000x64 .f32) (x1 : Vec Ideal S5000x1 .f32) (x2 : Vec Ideal S1x64 .f32) (x3 : Vec Ideal S64x32 .f32)
    (x4 : Vec Ideal S5000x1 .f32) (r : Fin 5000) (j : Fin 32) :
    (k1_pay1 (F := Ideal) x0 x1 x2 x3 x4 : S5000x32.Idx → EReal) (ix2 r j)
      = (∑ k : Fin 64, max ((x0 : S5000x64.Idx → EReal) (ix2 r k) * (x1 : S5000x1.Idx → EReal) (ix2 r 0) + (x2 : S1x64.Idx → EReal) (ix2 0 k)) (Ideal.ofBits .f32 0x00000000#32)
          * (x3 : S64x32.Idx → EReal) (ix2 k j)) * (x4 : S5000x1.Idx → EReal) (ix2 r 0) := by
  unfold k1_pay1
  rw [mulf_apply, mm1_apply, bcol_32]
  simp only [shapeCast_self]
  refine congrArg₂ (fun a b : EReal => a * b) (Finset.sum_congr rfl fun k _ => ?_) rfl
  rw [truncf_apply, truncf_apply, maximumf_apply, addf_apply, mulf_apply, broadcast_apply, bcol_64, brow_64]
  rfl

/-- Region 1's result as one function of the four arrays it reads, entry by entry. -/
def G1 (a0 : S100000x64.Idx → EReal) (a1 : S100000x1.Idx → EReal) (a2 : S1x64.Idx → EReal) (a3 : S64x32.Idx → EReal) : S100000x32.Idx → EReal :=
  fun i => (∑ k : Fin 64, max (a0 (ix2 (⟨(i 0).val, (i 0).isLt⟩ : Fin 100000) k) * a1 (ix2 (⟨(i 0).val, (i 0).isLt⟩ : Fin 100000) (0 : Fin 1)) + a2 (ix2 (0 : Fin 1) k)) (Ideal.ofBits .f32 0x00000000#32)
      * a3 (ix2 k (⟨(i 1).val, (i 1).isLt⟩ : Fin 32)))
    * a1 (ix2 (⟨(i 0).val, (i 0).isLt⟩ : Fin 100000) (0 : Fin 1))

theorem G1_apply (a0 : S100000x64.Idx → EReal) (a1 : S100000x1.Idx → EReal) (a2 : S1x64.Idx → EReal) (a3 : S64x32.Idx → EReal) (i : S100000x32.Idx)
    (n : Fin 100000) (j : Fin 32) (h0 : (i 0).val = n.val) (h1 : (i 1).val = j.val) :
    G1 a0 a1 a2 a3 i = (∑ k : Fin 64, max (a0 (ix2 n k) * a1 (ix2 n 0) + a2 (ix2 0 k)) (Ideal.ofBits .f32 0x00000000#32) * a3 (ix2 k j)) * a1 (ix2 n 0) := by
  have e : i = ix2 n j := funext fun a => Fin.ext (by
    match a with
    | ⟨0, _⟩ => exact h0
    | ⟨1, _⟩ => exact h1)
  subst e
  rfl

/-- The printed index maps, decided once over the twenty points: the row-blocked windows are at block t, the whole-array
    windows at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Block t of the sums is rows 5000 t … 5000 t + 4999 of the array. -/
theorem iblk1_0_apply (c : Dev nD) (t : Fin cfg1.N) (r : Fin 5000) (k : Fin 64) (n : Fin 100000) (hn : n.val = t.val * 5000 + r.val) :
    (iblk1 (F := Ideal) V c 0 t : S5000x64.Idx → EReal) (ix2 r k) = (V c main_v26 : S100000x64.Idx → EReal) (ix2 n k) := by
  obtain ⟨e00, e01, -⟩ := idx_facts1 t
  show (V c main_v26 : S100000x64.Idx → EReal) (((cfg1.win 0).blk t).view.emb (ix2 r k)) = _
  refine congrArg _ (funext fun a => Fin.ext ?_)
  match a with
  | ⟨0, _⟩ => show win1_0.index t (0 : Fin 2) * 5000 + 1 * r.val = n.val; omega
  | ⟨1, _⟩ => show win1_0.index t (1 : Fin 2) * 64 + 1 * k.val = k.val; omega

/-- Block t of the column of row factors is its rows 5000 t … 5000 t + 4999. -/
theorem iblk1_1_apply (c : Dev nD) (t : Fin cfg1.N) (r : Fin 5000) (n : Fin 100000) (hn : n.val = t.val * 5000 + r.val) :
    (iblk1 (F := Ideal) V c 1 t : S5000x1.Idx → EReal) (ix2 r 0) = (V c main_v15 : S100000x1.Idx → EReal) (ix2 n 0) := by
  obtain ⟨-, -, e10, e11, -⟩ := idx_facts1 t
  show (V c main_v15 : S100000x1.Idx → EReal) (((cfg1.win 1).blk t).view.emb (ix2 r 0)) = _
  refine congrArg _ (funext fun a => Fin.ext ?_)
  match a with
  | ⟨0, _⟩ => show win1_1.index t (0 : Fin 2) * 5000 + 1 * r.val = n.val; omega
  | ⟨1, _⟩ => show win1_1.index t (1 : Fin 2) * 1 + 1 * 0 = 0; omega

/-- The bias row's block is the whole array at every point. -/
theorem iblk1_2_apply (c : Dev nD) (t : Fin cfg1.N) (k : Fin 64) :
    (iblk1 (F := Ideal) V c 2 t : S1x64.Idx → EReal) (ix2 0 k) = (V c main_v27 : S1x64.Idx → EReal) (ix2 0 k) := by
  obtain ⟨-, -, -, -, e20, e21, -⟩ := idx_facts1 t
  show (V c main_v27 : S1x64.Idx → EReal) (((cfg1.win 2).blk t).view.emb (ix2 0 k)) = _
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * k.val = k.val; omega

/-- The weights' block is the whole array at every point. -/
theorem iblk1_3_apply (c : Dev nD) (t : Fin cfg1.N) (k : Fin 64) (j : Fin 32) :
    (iblk1 (F := Ideal) V c 3 t : S64x32.Idx → EReal) (ix2 k j) = (V c main_arg4 : S64x32.Idx → EReal) (ix2 k j) := by
  obtain ⟨-, -, -, -, -, -, e30, e31, -⟩ := idx_facts1 t
  show (V c main_arg4 : S64x32.Idx → EReal) (((cfg1.win 3).blk t).view.emb (ix2 k j)) = _
  refine congrArg _ (funext fun a => Fin.ext ?_)
  match a with
  | ⟨0, _⟩ => show win1_3.index t (0 : Fin 2) * 64 + 1 * k.val = k.val; omega
  | ⟨1, _⟩ => show win1_3.index t (1 : Fin 2) * 32 + 1 * j.val = j.val; omega

/-- What point t writes back is block t of `G1` of the arrays as the region finds them. -/
theorem flushed1_eq (c : Dev nD) (t : Fin cfg1.N) :
    (dat1 (F := Ideal) V c).flushed 4 t
      = ((cfg1.win 4).blk t).view.read (Elt Ideal) (G1 (V c main_v26) (V c main_v15) (V c main_v27) (V c main_arg4)) := by
  show (cfg1.win 4).cut (grid1.coords t) ((dat1 V c).after 4 t) = _
  rw [after1_4]
  unfold out1_4
  rw [View.canon_unit_zero hz2]
  simp only [View.ld_unit_zero (S := S5000x64) hz2, View.ld_unit_zero (S := S5000x1) hz2, View.ld_unit_zero (S := S1x64) hz2, View.ld_unit_zero (S := S64x32) hz2]
  obtain ⟨-, -, -, -, -, -, -, -, e40, e41⟩ := idx_facts1 t
  have ht : t.val < 20 := lt_of_lt_of_eq t.isLt N_1
  funext y
  obtain ⟨r, j, rfl⟩ : ∃ (r : Fin 5000) (j : Fin 32), y = ix2 r j := ⟨y 0, y 1, eq_ix2 y⟩
  have hr : r.val < 5000 := r.isLt
  obtain ⟨n, hn⟩ : ∃ n : Fin 100000, n.val = t.val * 5000 + r.val := ⟨⟨t.val * 5000 + r.val, by omega⟩, rfl⟩
  refine (pay1_apply _ _ _ _ _ r j).trans ?_
  show _ = G1 (V c main_v26) (V c main_v15) (V c main_v27) (V c main_arg4) (((cfg1.win 4).blk t).view.emb (ix2 r j))
  rw [G1_apply _ _ _ _ _ n j
    (by show win1_4.index t (0 : Fin 2) * 5000 + 1 * r.val = n.val; omega)
    (by show win1_4.index t (1 : Fin 2) * 32 + 1 * j.val = j.val; omega)]
  rw [iblk1_1_apply V c t r n hn]
  refine congrArg (· * _) (Finset.sum_congr rfl fun k _ => ?_)
  rw [iblk1_0_apply V c t r k n hn, iblk1_2_apply V c t k, iblk1_3_apply V c t k j]

/-- Every row is in the block of the point its number divided by 5000 names. -/
theorem cover1 (i : S100000x32.Idx) : ∃ t : Fin cfg1.N, (cfg1.win 4).flush t = true ∧ i ∈ ((cfg1.win 4).blk t).view.set := by
  have h0 : (i 0).val < 100000 := (i 0).isLt
  have h1 : (i 1).val < 32 := (i 1).isLt
  have hN : cfg1.N = 20 := N_1
  obtain ⟨t, htv⟩ : ∃ t : Fin cfg1.N, t.val = (i 0).val / 5000 := ⟨⟨(i 0).val / 5000, by rw [hN]; omega⟩, rfl⟩
  refine ⟨t, flush1_4 t, ?_⟩
  obtain ⟨-, -, -, -, -, -, -, -, e40, e41⟩ := idx_facts1 t
  show i ∈ ((View.whole main_v28).slice (win1_4.rect t)).set
  rw [View.set_slice_whole, Rect.mem_set_unit]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 32 ≤ (i 1).val ∧ (i 1).val < win1_4.index t (1 : Fin 2) * 32 + 32; omega

/-- Region 1 leaves `G1` of the arrays it reads in its output array. -/
theorem region1_whole (c : Dev nD) :
    ((dat1 (F := Ideal) V c).arrAt 4 cfg1.N : S100000x32.Idx → EReal) = G1 (V c main_v26) (V c main_v15) (V c main_v27) (V c main_arg4) :=
  (dat1 V c).arrAt_eq_of_cover 4 _ (fun t _ => flushed1_eq V c t) cover1

/-- Entry (n, j) of region 1's result as a function of the four arrays: row n of the sums scaled by the row's factor,
    the bias added, clipped at zero, against column j of the weights, scaled by the row's factor. -/
abbrev K1 (a : S100000x64.Idx → EReal) (d : S100000x1.Idx → EReal) (b : S1x64.Idx → EReal) (w : S64x32.Idx → EReal) (n : Fin 100000) (j : Fin 32) : EReal :=
  (∑ k : Fin 64, max (a (ix2 n k) * d (ix2 n 0) + b (ix2 0 k)) (Ideal.ofBits .f32 0x00000000#32) * w (ix2 k j)) * d (ix2 n 0)

/-- Region 1 leaves in its output array (window 4, main_v28): row n of max(agg·dinv + b1, 0) times W2, scaled by dinv n;
    agg = main_v26, dinv column = main_v15, b1 row = main_v27 ([1,64]), W2 = main_arg4. -/
theorem region1_arr (c : Dev nD) (n : Fin 100000) (j : Fin 32) :
    ((Gen.dat1 (F := Ideal) V c).arrAt 4 cfg1.N : S100000x32.Idx → EReal) (ix2 n j)
      = K1 (V c main_v26) (V c main_v15) (V c main_v27) (V c main_arg4) n j :=
  (congrFun (region1_whole V c) (ix2 n j)).trans (G1_apply _ _ _ _ _ n j rfl rfl)

/-- The same with the four arrays named: whatever they are known to be. -/
theorem region1_arr_of (c : Dev nD) (n : Fin 100000) (j : Fin 32)
    (a : S100000x64.Idx → EReal) (d : S100000x1.Idx → EReal) (b : S1x64.Idx → EReal) (w : S64x32.Idx → EReal)
    (ha : V c main_v26 = a) (hd : V c main_v15 = d) (hb : V c main_v27 = b) (hw : V c main_arg4 = w) :
    ((Gen.dat1 (F := Ideal) V c).arrAt 4 cfg1.N : S100000x32.Idx → EReal) (ix2 n j)
      = (∑ k : Fin 64, max (a (ix2 n k) * d (ix2 n 0) + b (ix2 0 k)) (Ideal.ofBits .f32 0x00000000#32) * w (ix2 k j)) * d (ix2 n 0) := by
  subst ha hd hb hw
  exact region1_arr V c n j

end Cert.KernelIdeal.KV

end
-- ==== Proof.KValue.lean ====
/-
  The kernel program's result array, boundary by boundary.

  Before the first region the program has the two edge-word lists and the normalisation column. The first region
  leaves x·W1 with row n scaled by the factor of node n; the next stretch gathers those rows along the edges and sums
  them where the edges land; the second region scales the sum by the node factor, adds the bias, clips at zero,
  multiplies by W2 and scales again; the last stretch gathers and sums once more, multiplies by the node factor and
  adds the second bias. Read at one element each step is the matching line of the node-scaled form of the two layers,
  so the result array is that form, element by element.
-/
import proofs.«145473_j49100066128394_2_alg».proof.Proof.KRun
import proofs.«145473_j49100066128394_2_alg».proof.Proof.KHost
import proofs.«145473_j49100066128394_2_alg».proof.Proof.KRegion0
import proofs.«145473_j49100066128394_2_alg».proof.Proof.KRegion1

set_option maxRecDepth 16384

noncomputable section

namespace Cert.KernelIdeal.KV

open Cert.KernelIdeal Cert.KernelIdeal.Gen
open Idealize.ShloMosaic Idealize.ShloMosaic.TcCoe Idealize.ShloMosaic.ValueIdx Idealize.ShloMosaic.StableHlo
open Idealize.SL.Sem
open Cert.Gcn

variable (m : (ℓ : Loc nD τ sig) → Buf (Elt Ideal) ℓ) (ρ : Dev nD → PrngReg) (c : Dev nD)

/-- The argument arrays and the edge words, named. -/
abbrev aX : S100000x128.Idx → EReal := m ((c.tc : Thread nD τ).loc main_arg0)
abbrev aW1 : S128x64.Idx → EReal := m ((c.tc : Thread nD τ).loc main_arg2)
abbrev aB1 : S64.Idx → EReal := m ((c.tc : Thread nD τ).loc main_arg3)
abbrev aW2 : S64x32.Idx → EReal := m ((c.tc : Thread nD τ).loc main_arg4)
abbrev aB2 : S32.Idx → EReal := m ((c.tc : Thread nD τ).loc main_arg5)
abbrev srcF : Fin 1700000 → BitVec 32 := fun e => srcArr (m ((c.tc : Thread nD τ).loc main_arg1)) (ix1 e)
abbrev dstF : Fin 1700000 → BitVec 32 := fun e => dstArr (m ((c.tc : Thread nD τ).loc main_arg1)) (ix1 e)

/-! ## The normalisation column at every boundary -/

theorem W3_dinv (n : Fin 100000) :
    (W3 m ρ c (Proc.devRef .tc main_v15) : S100000x1.Idx → EReal) (ix2 n 0) = dinv (dstF m c) n := by
  rw [W3_v15, dinvColArr_apply]
  unfold degK
  rw [degArr_apply _ _ _ _ rfl rfl rfl rfl]
  rfl

/-! ## The first region's exit -/

theorem W4_v16 (n : Fin 100000) (j : Fin 64) :
    (W4 m ρ c (Proc.devRef .tc main_v16) : S100000x64.Idx → EReal) (ix2 n j)
      = hs1 (aX m c) (aW1 m c) (dstF m c) n j := by
  have h : W4 m ρ c (Proc.devRef .tc main_v16) = (dat0 (V3 m ρ) c).arrAt 3 cfg0.N := W4_arr m ρ c 3
  rw [h, region0_arr (V3 m ρ) c n j]
  show K0 (W3 m ρ c (Proc.devRef .tc main_arg0)) (W3 m ρ c (Proc.devRef .tc main_arg2))
      (W3 m ρ c (Proc.devRef .tc main_v15)) n j = _
  rw [W3_arg0, W3_arg2]
  unfold K0 hs1 h1
  rw [W3_dinv]

theorem W4_v3 : W4 m ρ c (Proc.devRef .tc main_v3) = srcArr (m ((c.tc : Thread nD τ).loc main_arg1)) :=
  (W4_of_ne m ρ c main_v3 (by decide)).trans (W3_v3 m ρ c)
theorem W4_v6 : W4 m ρ c (Proc.devRef .tc main_v6) = dstArr (m ((c.tc : Thread nD τ).loc main_arg1)) :=
  (W4_of_ne m ρ c main_v6 (by decide)).trans (W3_v6 m ρ c)
theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem W4_arg3 : W4 m ρ c (Proc.devRef .tc main_arg3) = m ((c.tc : Thread nD τ).loc main_arg3) :=
  (W4_of_ne m ρ c main_arg3 (by decide)).trans (W3_arg3 m ρ c)
theorem W4_arg4 : W4 m ρ c (Proc.devRef .tc main_arg4) = m ((c.tc : Thread nD τ).loc main_arg4) :=
  (W4_of_ne m ρ c main_arg4 (by decide)).trans (W3_arg4 m ρ c)
theorem W4_arg5 : W4 m ρ c (Proc.devRef .tc main_arg5) = m ((c.tc : Thread nD τ).loc main_arg5) :=
  (W4_of_ne m ρ c main_arg5 (by decide)).trans (W3_arg5 m ρ c)

/-! ## The second region's entry -/

theorem W5_v26 (d : Fin 100000) (j : Fin 64) :
    (W5 m ρ c (Proc.devRef .tc main_v26) : S100000x64.Idx → EReal) (ix2 d j)
      = agg1 (aX m c) (aW1 m c) (srcF m c) (dstF m c) d j := by
  show (StableHlo.after (hostOps1 (F := Ideal)) (W4 m ρ c) (Proc.devRef .tc main_v26) : S100000x64.Idx → EReal) (ix2 d j) = _
  rw [mid_v26, aggArr_apply _ _ _ _ rfl rfl rfl rfl rfl rfl rfl _ rfl rfl rfl rfl, W4_v3, W4_v6]
  unfold agg1
  exact congrArg (z0 + ·) (Finset.sum_congr rfl fun e _ => W4_v16 m ρ c _ j)

theorem W5_v27 (k : Fin 64) :
    (W5 m ρ c (Proc.devRef .tc main_v27) : S1x64.Idx → EReal) (ix2 0 k) = aB1 m c (ix1 k) := by
  show (StableHlo.after (hostOps1 (F := Ideal)) (W4 m ρ c) (Proc.devRef .tc main_v27) : S1x64.Idx → EReal) (ix2 0 k) = _
  rw [mid_v27, unitRow64_apply, W4_arg3]

theorem W5_dinv (n : Fin 100000) :
    (W5 m ρ c (Proc.devRef .tc main_v15) : S100000x1.Idx → EReal) (ix2 n 0) = dinv (dstF m c) n := by
  show (StableHlo.after (hostOps1 (F := Ideal)) (W4 m ρ c) (Proc.devRef .tc main_v15) : S100000x1.Idx → EReal) (ix2 n 0) = _
  rw [mid_keep (W4 m ρ c) main_v15 (by simp), W4_v15, W3_dinv]

theorem W5_arg4 : W5 m ρ c (Proc.devRef .tc main_arg4) = m ((c.tc : Thread nD τ).loc main_arg4) :=
  (mid_keep (W4 m ρ c) main_arg4 (by simp)).trans (W4_arg4 m ρ c)
theorem W5_v3 : W5 m ρ c (Proc.devRef .tc main_v3) = srcArr (m ((c.tc : Thread nD τ).loc main_arg1)) :=
  (mid_keep (W4 m ρ c) main_v3 (by simp)).trans (W4_v3 m ρ c)
theorem W5_v6 : W5 m ρ c (Proc.devRef .tc main_v6) = dstArr (m ((c.tc : Thread nD τ).loc main_arg1)) :=
  (mid_keep (W4 m ρ c) main_v6 (by simp)).trans (W4_v6 m ρ c)
theorem W5_arg5 : W5 m ρ c (Proc.devRef .tc main_arg5) = m ((c.tc : Thread nD τ).loc main_arg5) :=
  (mid_keep (W4 m ρ c) main_arg5 (by simp)).trans (W4_arg5 m ρ c)

/-! ## The second region's exit -/

theorem W6_v28 (n : Fin 100000) (j : Fin 32) :
    (W6 m ρ c (Proc.devRef .tc main_v28) : S100000x32.Idx → EReal) (ix2 n j)
      = hs2 (aX m c) (aW1 m c) (aB1 m c) (aW2 m c) (srcF m c) (dstF m c) n j := by
  have h : W6 m ρ c (Proc.devRef .tc main_v28) = (dat1 (V5 m ρ) c).arrAt 4 cfg1.N := W6_arr m ρ c 4
  rw [h, region1_arr (V5 m ρ) c n j]
  show K1 (W5 m ρ c (Proc.devRef .tc main_v26)) (W5 m ρ c (Proc.devRef .tc main_v15))
      (W5 m ρ c (Proc.devRef .tc main_v27)) (W5 m ρ c (Proc.devRef .tc main_arg4)) n j = _
  rw [W5_arg4]
  unfold K1 hs2 h2k act1
  rw [W5_dinv]
  refine congrArg (· * dinv (dstF m c) n) (Finset.sum_congr rfl fun k _ => ?_)
  rw [W5_v26, W5_v27]

theorem W6_v3 : W6 m ρ c (Proc.devRef .tc main_v3) = srcArr (m ((c.tc : Thread nD τ).loc main_arg1)) :=
  (W6_of_ne m ρ c main_v3 (by decide)).trans (W5_v3 m ρ c)
theorem W6_v6 : W6 m ρ c (Proc.devRef .tc main_v6) = dstArr (m ((c.tc : Thread nD τ).loc main_arg1)) :=
  (W6_of_ne m ρ c main_v6 (by decide)).trans (W5_v6 m ρ c)
theorem W6_dinv (n : Fin 100000) :
    (W6 m ρ c (Proc.devRef .tc main_v15) : S100000x1.Idx → EReal) (ix2 n 0) = dinv (dstF m c) n := by
  have h : W6 m ρ c (Proc.devRef .tc main_v15) = W5 m ρ c (Proc.devRef .tc main_v15) :=
    (W6_arr m ρ c 1).trans (((dat1 (V5 m ρ) c).arrAt_in 1 rfl _).trans (A_eq1 (V5 m ρ) c 1))
  rw [h, W5_dinv]
theorem W6_arg5 : W6 m ρ c (Proc.devRef .tc main_arg5) = m ((c.tc : Thread nD τ).loc main_arg5) :=
  (W6_of_ne m ρ c main_arg5 (by decide)).trans (W5_arg5 m ρ c)

/-! ## The result -/

theorem W7_v43 (d : Fin 100000) (j : Fin 32) :
    (W7 m ρ c (Proc.devRef .tc main_v43) : S100000x32.Idx → EReal) (ix2 d j)
      = outK (aX m c) (aW1 m c) (aB1 m c) (aW2 m c) (aB2 m c) (srcF m c) (dstF m c) d j := by
  show (StableHlo.after (hostOps2 (F := Ideal)) (W6 m ρ c) (Proc.devRef .tc main_v43) : S100000x32.Idx → EReal) (ix2 d j) = _
  rw [tail_v43]
  show FloatOps.addf (F := Ideal) (φ := .f32)
      (FloatOps.mulf (F := Ideal) (φ := .f32)
        (broadcastInDim S100000x32 ![0, 1] Gen.bcast_S100000x1_S100000x32_0_1 (W6 m ρ c (Proc.devRef .tc main_v15)) (ix2 d j))
        (aggArr Gen.bcast_S_S100000x32 Gen.bcast_S_S1700000 Gen.bcast_S1700000_S1700000x1_0
          gather_S100000x32_S1700000x1_S1700000x32_1_0_n_n_0_1_132 scatter_S100000x32_S1700000x1_S1700000x32_1_0_0_1
          (W6 m ρ c (Proc.devRef .tc main_v28)) (W6 m ρ c (Proc.devRef .tc main_v3)) (W6 m ρ c (Proc.devRef .tc main_v6)) (ix2 d j)))
      (broadcastInDim S100000x32 ![0, 1] Gen.bcast_S1x32_S100000x32_0_1
          (broadcastInDim S1x32 ![1] Gen.bcast_S32_S1x32_1 (W6 m ρ c (Proc.devRef .tc main_arg5))) (ix2 d j)) = _
  rw [colSpread_apply, rowSpread32_apply, aggArr_apply _ _ _ _ rfl rfl rfl rfl rfl rfl rfl _ rfl rfl rfl rfl,
    W6_dinv, W6_v3, W6_v6, W6_arg5]
  unfold outK agg2
  exact congrArg (fun s => dinv (dstF m c) d * (z0 + s) + aB2 m c (ix1 j)) (Finset.sum_congr rfl fun e _ => W6_v28 m ρ c _ j)

/-- The kernel program's run, with the result array named: every weakly fair execution terminates without a fault, the
    result array ends at the node-scaled form of the two layers (`kOut`), and the arguments end as launched. -/
theorem kernel_value_run :
    θ_run (defs (F := Ideal)) (onTc (τ := τ) (main (F := Ideal))) ⟨m, fun _ => 0, ρ⟩ (fun r => ∀ c : Dev nD,
      r.2.mem ((c.tc : Thread nD τ).loc main_v43) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (by
      funext i
      obtain ⟨d, j, rfl⟩ : ∃ (d : Fin 100000) (j : Fin 32), i = ix2 d j := ⟨i 0, i 1, eq_ix2 i⟩
      exact W7_v43 m ρ c d j), (h c).2⟩) (run_last (F := Ideal) m ρ)

end Cert.KernelIdeal.KV

end
-- ==== Proof.Law.lean ====
/-
  The two arrangements of the two-layer graph convolution agree on real inputs.

  Every normalisation factor is a real number: a degree is a finite sum of ones, and the inverse square root of a
  positive real is a real. An edge that lands on node `d` reads `d` through its destination word, so inside the sum
  over the edges landing on `d` the edge factor is `dinv (source) * dinv d`, and the common factor `dinv d` comes out of
  the sum because all the terms are real. This is proved once for an arbitrary real-valued feature column and used for
  both layers.
-/
import proofs.«145473_j49100066128394_2_alg».proof.Proof.Spec
import proofs.«145473_j49100066128394_2_alg».proof.Proof.LibFinite
import proofs.«145473_j49100066128394_2_alg».proof.Proof.LibRowOps

noncomputable section

open scoped BigOperators

namespace Cert.Gcn

open Cert.Finite Cert.RowOps Idealize.ShloMosaic Idealize.ShloMosaic.ValueIdx

/-! ## The constants and the factors are real -/

/-- The zero word is the number zero. -/
theorem z0_eq : z0 = 0 := Ideal.ofBits_zero_f32

/-- The zero word is real. -/
theorem isReal_z0 : IsReal z0 := by
  rw [z0_eq]
  exact isReal_zero

/-- The word of one is real. -/
theorem isReal_one0 : IsReal one0 := isReal_ofBits_f32 _ (by decide)

/-- A degree is real. -/
theorem isReal_deg (dst : Fin 1700000 → BitVec 32) (d : Fin 100000) : IsReal (deg dst d) :=
  isReal_add_sum _ _ isReal_z0 fun _ _ => isReal_one0

/-- The inverse square root of a positive real, zero otherwise, is real. -/
theorem isReal_dinvAt {g : EReal} (hg : IsReal g) : IsReal (dinvAt g) := by
  obtain ⟨r, rfl⟩ := hg
  unfold dinvAt
  by_cases h : (0 : EReal) < (r : EReal)
  · rw [cmpf_ogt_zero_of_pos h]
    have h1 : (1#1 : BitVec 1) = 1 := rfl
    show IsReal (if (1#1 : BitVec 1) = 1 then _ else _)
    rw [if_pos h1, Ideal.hostUnary_rsqrt_def, Ideal.rsqrt_coe]
    have hr : 0 < r := EReal.coe_pos.mp h
    rw [if_neg (not_lt.mpr hr.le), if_neg hr.ne']
    exact isReal_coe _
  · rw [cmpf_ogt_zero_of_not_pos h]
    show IsReal (if (0#1 : BitVec 1) = 1 then _ else _)
    rw [if_neg (by decide)]
    exact isReal_z0

/-- Every normalisation factor is real. -/
theorem isReal_dinv (dst : Fin 1700000 → BitVec 32) (d : Fin 100000) : IsReal (dinv dst d) :=
  isReal_dinvAt (isReal_deg dst d)

/-! ## An edge that lands on a node reads that node through its destination word -/

/-- A word that is a node number, read signed, names that node when a row is read by it. -/
theorem gRow_of_toInt {w : BitVec 32} {d : Fin 100000} (h : w.toInt = (d.val : Int)) : gRow w = d := by
  have hd := d.isLt
  have hn : nrmW w = w := by
    unfold nrmW
    have hc : IntOp.cmpi .slt w 0#32 = 0#1 := by
      show BitVec.ofBool (w.slt 0#32) = 0#1
      have : w.slt 0#32 = false := by
        rw [BitVec.slt_eq_decide]
        simp only [BitVec.toInt_zero, decide_eq_false_iff_not, not_lt]
        omega
      rw [this]
      rfl
    rw [hc]
    exact if_neg (by decide)
  unfold gRow
  rw [hn]
  apply Fin.ext
  show min w.toInt.toNat (100000 - 1) = d.val
  omega

/-- An edge that lands on `d` has a destination word that reads `d`. -/
theorem gRow_dst_of_mem_hits {dst : Fin 1700000 → BitVec 32} {d : Fin 100000} {e : Fin 1700000}
    (he : e ∈ hits dst d) : gRow (dst e) = d := by
  unfold hits at he
  rw [Finset.mem_filter] at he
  exact gRow_of_toInt ((scatterRow_eq_some_iff (dst e) d).mp he.2)

/-! ## The common factor of one node's sum comes out of the sum -/

/-- A zero plus a finite sum of real terms, times a real, is the zero plus the sum of the terms times the real. -/
theorem zero_add_sum_mul_real {ι : Type*} (s : Finset ι) (u : ι → ℝ) (k : ℝ) :
    ((0 : EReal) + ∑ e ∈ s, (u e : EReal)) * (k : EReal) = 0 + ∑ e ∈ s, ((u e * k : ℝ) : EReal) := by
  rw [zero_add, zero_add, ← coe_sum, ← coe_sum, ← EReal.coe_mul, Finset.sum_mul]

/-- The layer law, for one real-valued feature column `f`: the sum over the edges landing on `d` of the features scaled
    at the source, scaled at `d` afterwards, is the sum of the features scaled on the edges. -/
theorem layer_law (src dst : Fin 1700000 → BitVec 32) (f : Fin 100000 → EReal) (hf : ∀ n, IsReal (f n))
    (d : Fin 100000) :
    (z0 + ∑ e ∈ hits dst d, f (gRow (src e)) * dinv dst (gRow (src e))) * dinv dst d
      = z0 + ∑ e ∈ hits dst d, f (gRow (src e)) * nrmE src dst e := by
  obtain ⟨fr, hfr⟩ := exists_real_fun f hf
  obtain ⟨ar, har⟩ := exists_real_fun (dinv dst) (isReal_dinv dst)
  have hL : ∀ e, f (gRow (src e)) * dinv dst (gRow (src e)) = ((fr (gRow (src e)) * ar (gRow (src e)) : ℝ) : EReal) := by
    intro e
    rw [hfr, har, EReal.coe_mul]
  have hR : ∀ e ∈ hits dst d,
      f (gRow (src e)) * nrmE src dst e = ((fr (gRow (src e)) * ar (gRow (src e)) * ar d : ℝ) : EReal) := by
    intro e he
    unfold nrmE
    rw [gRow_dst_of_mem_hits he, hfr, har, har, ← EReal.coe_mul, ← EReal.coe_mul, mul_assoc]
  rw [Finset.sum_congr rfl hR, Finset.sum_congr rfl fun e _ => hL e, z0_eq, har d]
  exact zero_add_sum_mul_real _ _ _

section Layers

variable (x : (⟨2, ![100000, 128]⟩ : Shape).Idx → EReal) (w1 : (⟨2, ![128, 64]⟩ : Shape).Idx → EReal)
  (b1 : (⟨1, ![64]⟩ : Shape).Idx → EReal) (w2 : (⟨2, ![64, 32]⟩ : Shape).Idx → EReal)
  (b2 : (⟨1, ![32]⟩ : Shape).Idx → EReal) (src dst : Fin 1700000 → BitVec 32)

/-! ## Finiteness of the intermediate values -/

/-- The first dense layer of real inputs is real. -/
theorem isReal_h1 (hx : ∀ i, IsReal (x i)) (hw1 : ∀ i, IsReal (w1 i)) (n : Fin 100000) (c : Fin 64) :
    IsReal (h1 x w1 n c) :=
  isReal_sum_univ _ fun _ => (hx _).mul (hw1 _)

/-- The first aggregation is real. -/
theorem isReal_agg1 (hx : ∀ i, IsReal (x i)) (hw1 : ∀ i, IsReal (w1 i)) (d : Fin 100000) (c : Fin 64) :
    IsReal (agg1 x w1 src dst d c) :=
  isReal_add_sum _ _ isReal_z0 fun _ _ => (isReal_h1 x w1 hx hw1 _ _).mul (isReal_dinv dst _)

/-- The hidden activation is real. -/
theorem isReal_act1 (hx : ∀ i, IsReal (x i)) (hw1 : ∀ i, IsReal (w1 i)) (hb1 : ∀ i, IsReal (b1 i))
    (d : Fin 100000) (c : Fin 64) : IsReal (act1 x w1 b1 src dst d c) :=
  ((((isReal_agg1 x w1 src dst hx hw1 d c).mul (isReal_dinv dst d)).add (hb1 _))).max isReal_z0

/-- The second dense layer on the hidden activation is real. -/
theorem isReal_h2k (hx : ∀ i, IsReal (x i)) (hw1 : ∀ i, IsReal (w1 i)) (hb1 : ∀ i, IsReal (b1 i))
    (hw2 : ∀ i, IsReal (w2 i)) (d : Fin 100000) (c : Fin 32) : IsReal (h2k x w1 b1 w2 src dst d c) :=
  isReal_sum_univ _ fun _ => (isReal_act1 x w1 b1 src dst hx hw1 hb1 _ _).mul (hw2 _)

/-! ## The two forms agree, layer by layer -/

/-- The hidden activations agree. -/
theorem r1_eq_act1 (hx : ∀ i, IsReal (x i)) (hw1 : ∀ i, IsReal (w1 i)) (d : Fin 100000) (c : Fin 64) :
    r1 x w1 b1 src dst d c = act1 x w1 b1 src dst d c := by
  unfold r1 act1 o1 agg1
  have e := layer_law src dst (fun n => h1 x w1 n c) (fun n => isReal_h1 x w1 hx hw1 n c) d
  simp only [hs1, msg1]
  rw [← e]

/-- The second dense layers agree. -/
theorem h2r_eq_h2k (hx : ∀ i, IsReal (x i)) (hw1 : ∀ i, IsReal (w1 i)) (d : Fin 100000) (c : Fin 32) :
    h2r x w1 b1 w2 src dst d c = h2k x w1 b1 w2 src dst d c := by
  unfold h2r h2k
  exact Finset.sum_congr rfl fun k _ => by rw [r1_eq_act1 x w1 b1 src dst hx hw1 d k]

end Layers

/-- Scaling on the nodes and scaling on the edges give the same result on real inputs. -/
theorem outK_eq_outR (x : (⟨2, ![100000, 128]⟩ : Shape).Idx → EReal) (w1 : (⟨2, ![128, 64]⟩ : Shape).Idx → EReal)
    (b1 : (⟨1, ![64]⟩ : Shape).Idx → EReal) (w2 : (⟨2, ![64, 32]⟩ : Shape).Idx → EReal)
    (b2 : (⟨1, ![32]⟩ : Shape).Idx → EReal) (src dst : Fin 1700000 → BitVec 32)
    (hx : ∀ i, IsReal (x i)) (hw1 : ∀ i, IsReal (w1 i)) (hb1 : ∀ i, IsReal (b1 i)) (hw2 : ∀ i, IsReal (w2 i))
    (hb2 : ∀ i, IsReal (b2 i)) (d : Fin 100000) (c : Fin 32) :
    outK x w1 b1 w2 b2 src dst d c = outR x w1 b1 w2 b2 src dst d c := by
  have e := layer_law src dst (fun n => h2k x w1 b1 w2 src dst n c)
    (fun n => isReal_h2k x w1 b1 w2 src dst hx hw1 hb1 hw2 n c) d
  have hk : agg2 x w1 b1 w2 src dst d c
      = z0 + ∑ e ∈ hits dst d, h2k x w1 b1 w2 src dst (gRow (src e)) c * dinv dst (gRow (src e)) := by
    simp only [agg2, hs2]
  have hr : ∑ e ∈ hits dst d, msg2 x w1 b1 w2 src dst e c
      = ∑ e ∈ hits dst d, h2k x w1 b1 w2 src dst (gRow (src e)) c * nrmE src dst e :=
    Finset.sum_congr rfl fun e _ => by
      rw [msg2, h2r_eq_h2k x w1 b1 w2 src dst hx hw1 (gRow (src e)) c]
  rw [outK, outR, hk, hr, ← e, mul_comm (dinv dst d)]

end Cert.Gcn

end
-- ==== Proof.LibPreDecode.lean ====
/-
  A predicate that is a conjunction of "all entries of an array satisfy a comparison", read back.

  Such a predicate is a one-bit scalar built from three things: an entrywise comparison of two arrays, giving an
  array of one-bit words; a reduction of that array by "and" over all axes, from the word 1; and the "and" of several
  such scalars. If the scalar is 1 then every conjunct is 1 (a conjunction of one-bit words is 1 exactly when each
  word is), a reduction by "and" that came out 1 met only 1s, and a comparison word that is 1 says the comparison
  holds. Over the extended reals two comparisons matter here: "x > y" is the strict order, and "|x| < +infinity"
  says exactly that x is finite, the image of a real number (it excludes both infinities; |x| is max x (-x)).

  The statements are over an arbitrary array shape, an arbitrary float format whose compared pattern denotes +infinity
  (with the f32 and bf16 patterns as instances), and both ways a scalar is said to be 1: at its one index, or as the
  constant function. Nothing here mentions a particular program.
-/
import Idealize.ShloMosaic.PureOps.Ideal
import Idealize.ShloMosaic.PureOps.Ideal.Laws
import Idealize.ShloMosaic.Lib.ValueIdx
import Idealize.ShloMosaic.Lib.ReduceAll
import proofs.«145473_j49100066128394_2_alg».proof.Proof.LibFinite

noncomputable section

namespace Cert.PreDecodeLib

open Idealize.ShloMosaic Idealize.ShloMosaic.ValueIdx
open Cert.Finite

/-! ## The scalar shape -/

/-- The shape of a scalar: rank 0. -/
abbrev S0 : Shape := ⟨0, ![]⟩

/-- The scalar shape has one index. -/
instance subsingleton_S0_idx : Subsingleton S0.Idx := ⟨fun a b => funext fun d => d.elim0⟩

/-- A one-bit scalar that is the constant function 1 is 1 at its one index. -/
theorem at_ix0_of_eq_one {x : IVec S0 1} (h : x = fun _ => 1#1) : x ix0 = 1#1 := congrFun h ix0

/-- A one-bit scalar that is 1 at its one index is the constant function 1. -/
theorem eq_one_of_at_ix0 {x : IVec S0 1} (h : x ix0 = 1#1) : x = fun _ => 1#1 :=
  funext fun i => by rw [eq_ix0 i]; exact h

/-! ## One-bit words -/

/-- A one-bit word made from a decision is 1 exactly when the decision holds. -/
theorem ofBool_eq_one (b : Bool) : BitVec.ofBool b = 1#1 ↔ b = true := by cases b <;> decide

/-- The entrywise "and" of two arrays of one-bit words is 1 at an index exactly when both are 1 there. -/
theorem andi_eq_one_at {s : Shape} {x y : IVec s 1} {i : s.Idx} (h : andi x y i = 1#1) : x i = 1#1 ∧ y i = 1#1 :=
  IntOp.andi_eq_one.1 h

/-- The "and" of two one-bit scalars that is 1 at the scalar's index has both conjuncts 1 there. -/
theorem andi_ix0 {x y : IVec S0 1} (h : andi x y ix0 = 1#1) : x ix0 = 1#1 ∧ y ix0 = 1#1 :=
  andi_eq_one_at h

/-- The entrywise "and" of two arrays of one-bit words that is constantly 1 has both arrays constantly 1. -/
theorem andi_eq_one {s : Shape} {x y : IVec s 1} (h : andi x y = fun _ => 1#1) :
    x = (fun _ => 1#1) ∧ y = (fun _ => 1#1) :=
  ⟨funext fun i => (andi_eq_one_at (congrFun h i)).1, funext fun i => (andi_eq_one_at (congrFun h i)).2⟩

/-! ## Comparisons of extended reals, read back -/

/-- A comparison word "x > y" that is 1: x is strictly above y. -/
theorem lt_of_ogt {φ : FTy} {x y : Ideal φ} (h : FloatOps.cmpf .ogt x y = 1#1) : (y : EReal) < x := by
  have h2 : Ideal.cmp .ogt x y = 1#1 := h
  unfold Ideal.cmp at h2
  rw [ofBool_eq_one] at h2
  exact of_decide_eq_true h2

/-- A comparison word "x < y" that is 1: x is strictly below y. -/
theorem lt_of_olt {φ : FTy} {x y : Ideal φ} (h : FloatOps.cmpf .olt x y = 1#1) : (x : EReal) < y := by
  have h2 : Ideal.cmp .olt x y = 1#1 := h
  unfold Ideal.cmp at h2
  rw [ofBool_eq_one] at h2
  exact of_decide_eq_true h2

/-- Two arrays compared entry by entry by "greater than", the word at an index being 1: the inequality there. -/
theorem gt_of_ogt_at {φ : FTy} {s : Shape} (x y : FVec Ideal s φ) (j : s.Idx) (h : cmpf .ogt x y j = 1#1) :
    x j > y j :=
  lt_of_ogt h

/-- The f32 pattern `0x7F800000` denotes +infinity. -/
theorem ofBits_inf_f32 : Ideal.ofBits .f32 0x7F800000#32 = (⊤ : EReal) := by simp [Ideal.ofBits, Ideal.ieee]

/-- The bf16 pattern `0x7F80` denotes +infinity. -/
theorem ofBits_inf_bf16 : Ideal.ofBits .bf16 0x7F80#16 = (⊤ : EReal) := by simp [Ideal.ofBits, Ideal.ieee]

/-- An extended real whose absolute value max x (-x) lies strictly below +infinity is a real. -/
theorem isReal_of_abs_lt_top {x : EReal} (h : max x (-x) < ⊤) : IsReal x := by
  induction x using EReal.rec with
  | bot => simp at h
  | coe r => exact ⟨r, rfl⟩
  | top => simp at h

/-- The comparison word "|x| < b" that is 1, for a pattern b that denotes +infinity: x is a real. -/
theorem isReal_of_abs_lt {φ : FTy} (b : BitVec φ.bits) (hb : Ideal.ofBits φ b = (⊤ : EReal)) (x : Ideal φ)
    (h : FloatOps.cmpf .olt (FloatOps.hostAbsf x) (FloatOps.ofBits (F := Ideal) φ b) = 1#1) : IsReal x := by
  have h2 : (max (x : EReal) (-x)) < Ideal.ofBits φ b := lt_of_olt h
  rw [hb] at h2
  exact isReal_of_abs_lt_top h2

/-- The f32 case: the comparison word "|x| < 0x7F800000" that is 1 says x is a real. -/
theorem isReal_of_abs_lt_f32 (x : Ideal .f32)
    (h : FloatOps.cmpf .olt (FloatOps.hostAbsf x) (FloatOps.ofBits (F := Ideal) .f32 0x7F800000#32) = 1#1) :
    IsReal x :=
  isReal_of_abs_lt _ ofBits_inf_f32 x h

/-! ## Arrays -/

/-- Every entry of an array of extended reals is a real. -/
abbrev AllReal {φ : FTy} {s : Shape} (x : FVec Ideal s φ) : Prop := ∀ i, IsReal (x i)

/-- Every entry of an array (already in absolute value) compares strictly below the scalar pattern b broadcast to
    the array's shape: the array of comparison words is 1 at every index. -/
abbrev LtBcast {φ : FTy} {s : Shape} (b : BitVec φ.bits) (hb : S0.BroadcastsInDim s (![] : Fin 0 → Fin s.rank))
    (x : FVec Ideal s φ) : Prop :=
  ∀ i, cmpf .olt x (broadcastInDim s ![] hb (constant S0 φ b)) i = 1#1

/-- The f32 case with the pattern of +infinity. -/
abbrev AbsLtInf {s : Shape} (hb : S0.BroadcastsInDim s (![] : Fin 0 → Fin s.rank)) (x : FVec Ideal s .f32) : Prop :=
  LtBcast 0x7F800000#32 hb x

/-- An array whose absolute values all compare below a pattern that denotes +infinity has real entries. -/
theorem allReal_of_ltBcast {φ : FTy} {s : Shape} (b : BitVec φ.bits) (htop : Ideal.ofBits φ b = (⊤ : EReal))
    (x : FVec Ideal s φ) (hb : S0.BroadcastsInDim s (![] : Fin 0 → Fin s.rank)) (h : LtBcast b hb (Host.absf x)) :
    AllReal x :=
  fun i => isReal_of_abs_lt b htop (x i) (h i)

/-- The f32 case: an array whose absolute values all compare below +infinity has real entries. -/
theorem allReal_of_abs {s : Shape} (x : FVec Ideal s .f32) (hb : S0.BroadcastsInDim s (![] : Fin 0 → Fin s.rank))
    (h : AbsLtInf hb (Host.absf x)) : AllReal x :=
  allReal_of_ltBcast _ ofBits_inf_f32 x hb h

/-! ## The reduction by "and" -/

/-- A reduction by "and" over all axes that is 1 at the scalar's index: every entry of the reduced array is 1. -/
theorem all_of_reduce {s u : Shape} {axes : List (Fin s.rank)} (p : IVec s 1) (init : IVec u 1) (hr : s.ReducesTo axes S0)
    (hu : 0 < u.numel) (e : Host.reduce IntOp.andi p init hr hu ix0 = 1#1) (i : s.Idx) : p i = 1#1 :=
  Host.reduce_andi_all p init hr hu ix0 e i

/-- The same when the reduction is said to be the constant function 1. -/
theorem all_of_reduce_eq {s u : Shape} {axes : List (Fin s.rank)} (p : IVec s 1) (init : IVec u 1)
    (hr : s.ReducesTo axes S0) (hu : 0 < u.numel) (e : Host.reduce IntOp.andi p init hr hu = fun _ => 1#1) (i : s.Idx) :
    p i = 1#1 :=
  all_of_reduce p init hr hu (congrFun e ix0) i

/-- "All |x i| < b" came out 1, for a pattern b that denotes +infinity: every entry of x is a real. -/
theorem allReal_of_all {φ : FTy} {s u : Shape} {axes : List (Fin s.rank)} (b : BitVec φ.bits)
    (htop : Ideal.ofBits φ b = (⊤ : EReal)) (x : FVec Ideal s φ) (hb : S0.BroadcastsInDim s (![] : Fin 0 → Fin s.rank))
    (init : IVec u 1) (hr : s.ReducesTo axes S0) (hu : 0 < u.numel)
    (e : Host.reduce IntOp.andi (cmpf .olt (Host.absf x) (broadcastInDim s ![] hb (constant S0 φ b))) init hr hu ix0
      = 1#1) : AllReal x :=
  allReal_of_ltBcast b htop x hb (all_of_reduce _ _ hr hu e)

/-- The f32 case, the reduction started from the word 1, 1 at the scalar's index: every entry of x is a real. -/
theorem finite_of_all {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu ix0 = 1#1) : AllReal x :=
  allReal_of_all _ ofBits_inf_f32 x hb _ hr hu e

/-- The same when the reduction is said to be the constant function 1. -/
theorem finite_of_all_eq {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu = fun _ => 1#1) : AllReal x :=
  finite_of_all x hb hr hu (congrFun e ix0)

/-- "All x j > y j" came out 1 at the scalar's index: x lies strictly above y at every index. -/
theorem gt_of_all {φ : FTy} {s u : Shape} {axes : List (Fin s.rank)} (x y : FVec Ideal s φ) (init : IVec u 1)
    (hr : s.ReducesTo axes S0) (hu : 0 < u.numel)
    (e : Host.reduce IntOp.andi (cmpf .ogt x y) init hr hu ix0 = 1#1) (j : s.Idx) : x j > y j :=
  gt_of_ogt_at x y j (all_of_reduce _ _ hr hu e j)

/-- The same when the reduction is said to be the constant function 1. -/
theorem gt_of_all_eq {φ : FTy} {s u : Shape} {axes : List (Fin s.rank)} (x y : FVec Ideal s φ) (init : IVec u 1)
    (hr : s.ReducesTo axes S0) (hu : 0 < u.numel)
    (e : Host.reduce IntOp.andi (cmpf .ogt x y) init hr hu = fun _ => 1#1) (j : s.Idx) : x j > y j :=
  gt_of_all x y init hr hu (congrFun e ix0) j

end Cert.PreDecodeLib

end
-- ==== Proof.PreFinite.lean ====
/-
  From the precondition to the finiteness of the float arguments.

  The precondition is the conjunction of five statements "every entry of the array has absolute value below
  +infinity", one per float argument. If it holds, each conjunct holds, so each reduction by "and" came out 1, so every
  comparison word is 1, so every entry is a real number.
-/
import proofs.«145473_j49100066128394_2_alg».proof.Defs
import proofs.«145473_j49100066128394_2_alg».proof.Proof.Gen.Pre_finite_inputs
import proofs.«145473_j49100066128394_2_alg».proof.Proof.LibPreDecode
import proofs.«145473_j49100066128394_2_alg».proof.Proof.LibFinite

noncomputable section

namespace Cert.KernelIdeal.PreFinite

open Idealize.ShloMosaic Cert.PreDecodeLib

/-- If the precondition holds, every entry of every float argument is a real number. -/
theorem finite_args [Cert.Pre_finite_inputs.Facts] (a0 : FVec Ideal Cert.Pre_finite_inputs.S100000x128 .f32)
    (a1 : IVec Cert.Pre_finite_inputs.S2x1600000 32) (a2 : FVec Ideal Cert.Pre_finite_inputs.S128x64 .f32)
    (a3 : FVec Ideal Cert.Pre_finite_inputs.S64 .f32) (a4 : FVec Ideal Cert.Pre_finite_inputs.S64x32 .f32)
    (a5 : FVec Ideal Cert.Pre_finite_inputs.S32 .f32)
    (h : Cert.Pre_finite_inputs.fn (F := Ideal) a0 a1 a2 a3 a4 a5 = fun _ => 1#1) :
    (∀ i, Cert.Finite.IsReal (a0 i)) ∧ (∀ i, Cert.Finite.IsReal (a2 i)) ∧ (∀ i, Cert.Finite.IsReal (a3 i))
      ∧ (∀ i, Cert.Finite.IsReal (a4 i)) ∧ (∀ i, Cert.Finite.IsReal (a5 i)) := by
  dsimp only [Cert.Pre_finite_inputs.fn, Cert.Pre_finite_inputs.fn_part1] at h
  obtain ⟨h18, h5⟩ := andi_eq_one h
  obtain ⟨h13, h4⟩ := andi_eq_one h18
  obtain ⟨h8, h3⟩ := andi_eq_one h13
  obtain ⟨h0, h2⟩ := andi_eq_one h8
  exact ⟨finite_of_all_eq a0 _ _ _ h0, finite_of_all_eq a2 _ _ _ h2, finite_of_all_eq a3 _ _ _ h3,
    finite_of_all_eq a4 _ _ _ h4, finite_of_all_eq a5 _ _ _ h5⟩

end Cert.KernelIdeal.PreFinite

end
-- ==== Proof.Assembly.lean ====
/-
  The certificate's five claims, assembled.

  The three programs run and leave their arguments unchanged. The kernel program at the ideal instance ends with the
  node-scaled form of the two-layer graph convolution; the reference ends with the edge-scaled form; on arguments that
  are real numbers, which the precondition says they are, the two forms are equal, so from memories that agree on the
  arguments the two programs end with the same result array.
-/
import proofs.«145473_j49100066128394_2_alg».proof.Defs
import proofs.«145473_j49100066128394_2_alg».proof.Proof.Gen.Kernel
import proofs.«145473_j49100066128394_2_alg».proof.Proof.Gen.KernelIdeal
import proofs.«145473_j49100066128394_2_alg».proof.Proof.Gen.ReferenceIdeal
import proofs.«145473_j49100066128394_2_alg».proof.Proof.Gen.Pre_finite_inputs
import proofs.«145473_j49100066128394_2_alg».proof.Proof.Gen.Kernel.Frame
import proofs.«145473_j49100066128394_2_alg».proof.Proof.Gen.KernelIdeal.Frame
import proofs.«145473_j49100066128394_2_alg».proof.Proof.RefRun
import proofs.«145473_j49100066128394_2_alg».proof.Proof.RefRead
import proofs.«145473_j49100066128394_2_alg».proof.Proof.RefValue
import proofs.«145473_j49100066128394_2_alg».proof.Proof.KValue
import proofs.«145473_j49100066128394_2_alg».proof.Proof.Law
import proofs.«145473_j49100066128394_2_alg».proof.Proof.PreFinite

noncomputable section

namespace Cert.Proof.Parts

open Idealize.ShloMosaic Idealize.ShloMosaic.ValueIdx Idealize.SL.Sem

/-! ## The three runs -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-! ## The two results are one function of the arguments -/

/-- On real arguments the reference's result, read at any index, is the node-scaled form over the same edge words. -/
theorem ref_eq_kernel (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x64, .f32⟩ : BufTy).Contents (Elt Ideal))
    (x3 : (⟨Cert.ReferenceIdeal.S64, .f32⟩ : BufTy).Contents (Elt Ideal))
    (x4 : (⟨Cert.ReferenceIdeal.S64x32, .f32⟩ : BufTy).Contents (Elt Ideal))
    (x5 : (⟨Cert.ReferenceIdeal.S32, .f32⟩ : BufTy).Contents (Elt Ideal))
    (h0 : ∀ i, Cert.Finite.IsReal (x0 i)) (h2 : ∀ i, Cert.Finite.IsReal (x2 i)) (h3 : ∀ i, Cert.Finite.IsReal (x3 i))
    (h4 : ∀ i, Cert.Finite.IsReal (x4 i)) (h5 : ∀ i, Cert.Finite.IsReal (x5 i))
    (i : Cert.ReferenceIdeal.S100000x32.Idx) :
    Cert.ReferenceIdeal.ReadP.val_main_v87 (F := Ideal) x0 x1 x2 x3 x4 x5 i
      = Cert.Gcn.outK x0 x2 x3 x4 x5 (fun e => Cert.KernelIdeal.KV.srcArr x1 (ix1 e))
          (fun e => Cert.KernelIdeal.KV.dstArr x1 (ix1 e)) ⟨(i 0).val, (i 0).isLt⟩ ⟨(i 1).val, (i 1).isLt⟩ := by
  have hi : i = ix2 (⟨(i 0).val, (i 0).isLt⟩ : Fin 100000) (⟨(i 1).val, (i 1).isLt⟩ : Fin 32) := eq_ix2 i
  calc Cert.ReferenceIdeal.ReadP.val_main_v87 (F := Ideal) x0 x1 x2 x3 x4 x5 i
      = Cert.ReferenceIdeal.ReadP.val_main_v87 (F := Ideal) x0 x1 x2 x3 x4 x5
          (ix2 (⟨(i 0).val, (i 0).isLt⟩ : Fin 100000) (⟨(i 1).val, (i 1).isLt⟩ : Fin 32)) :=
        congrArg (Cert.ReferenceIdeal.ReadP.val_main_v87 (F := Ideal) x0 x1 x2 x3 x4 x5) hi
    _ = Cert.Gcn.outR x0 x2 x3 x4 x5 (Cert.ReferenceIdeal.RefValue.srcW x1) (Cert.ReferenceIdeal.RefValue.dstW x1)
          ⟨(i 0).val, (i 0).isLt⟩ ⟨(i 1).val, (i 1).isLt⟩ :=
        Cert.ReferenceIdeal.RefValue.ref_value x0 x1 x2 x3 x4 x5 _ _
    _ = Cert.Gcn.outK x0 x2 x3 x4 x5 (Cert.ReferenceIdeal.RefValue.srcW x1) (Cert.ReferenceIdeal.RefValue.dstW x1)
          ⟨(i 0).val, (i 0).isLt⟩ ⟨(i 1).val, (i 1).isLt⟩ :=
        (Cert.Gcn.outK_eq_outR x0 x2 x3 x4 x5 _ _ h0 h2 h3 h4 h5 _ _).symm
    _ = _ := rfl

/-- At the ideal instance, from memories that agree on the arguments and satisfy the precondition, both programs run
    and end with the same result array: the node-scaled form of the two layers. -/
theorem algebraic : Cert.algebraic_KernelIdeal_ReferenceIdeal := by
  intro m ρ m' ρ' hpre hagree
  refine ⟨fun c => Cert.KernelIdeal.KV.kOut m c, Cert.KernelIdeal.KV.kernel_value_run m ρ, ?_⟩
  refine (θ_run Cert.ReferenceIdeal.defs _ _).mono (fun _ h c => ⟨(h c).1.trans ?_, (h c).2⟩)
    (Cert.ReferenceIdeal.ValueP.run (F := Ideal) m' ρ')
  obtain ⟨f0, f2, f3, f4, f5⟩ := Cert.KernelIdeal.PreFinite.finite_args _ _ _ _ _ _ (hpre c)
  rw [Cert.ReferenceIdeal.ReadP.val_main_v87_eq, (hagree c).1, (hagree c).2.1, (hagree c).2.2.1, (hagree c).2.2.2.1,
    (hagree c).2.2.2.2.1, (hagree c).2.2.2.2.2]
  exact funext fun i => ref_eq_kernel _ _ _ _ _ _ f0 f2 f3 f4 f5 i

end Cert.Proof.Parts

end
-- ==== Proof.lean ====
/-
  Two layers of graph convolution with symmetric degree normalisation, over 100000 nodes and 1700000 edges (the given
  edges and one self loop per node): the kernel program against its reference, at the ideal instance.

  The reference scales every message on its edge by the product of the factors of the edge's two end points and sums
  the messages landing on a node. The kernel program multiplies the node features by the node factor inside its first
  matrix-product kernel, gathers and sums the rows on the host, and in its second kernel multiplies the sum by the node
  factor, adds the bias, clips at zero, multiplies by the second weight matrix and by the node factor again; the host
  gathers and sums once more, multiplies by the node factor and adds the second bias. An edge that lands on node d has
  destination d, so the destination's factor is common to all the terms of the sum at d and can be taken out of it —
  on the extended reals this needs every term to be a real number, which the precondition (all float arguments finite)
  gives: the in-degrees are counts, so every node factor is real, and sums and products of reals are real.

  The modules: the two forms and their equality (Spec, Law), the precondition read as finiteness (PreFinite), the
  reference read element by element (RefValue), the kernel program's two regions as whole-array functions (KRegion0,
  KRegion1), its host stretches and boundaries (KHostLib, KHost, KValue), its run (KRun), and the five claims (Assembly).
-/
import proofs.«145473_j49100066128394_2_alg».proof.Defs
import proofs.«145473_j49100066128394_2_alg».proof.Proof.Gen.Kernel
import proofs.«145473_j49100066128394_2_alg».proof.Proof.Gen.Kernel.Skeleton
import proofs.«145473_j49100066128394_2_alg».proof.Proof.Gen.Kernel.Launch
import proofs.«145473_j49100066128394_2_alg».proof.Proof.Gen.Kernel.Points
import proofs.«145473_j49100066128394_2_alg».proof.Proof.Gen.Kernel.Frame
import proofs.«145473_j49100066128394_2_alg».proof.Proof.Gen.KernelIdeal
import proofs.«145473_j49100066128394_2_alg».proof.Proof.Gen.KernelIdeal.Skeleton
import proofs.«145473_j49100066128394_2_alg».proof.Proof.Gen.KernelIdeal.Launch
import proofs.«145473_j49100066128394_2_alg».proof.Proof.Gen.KernelIdeal.Points
import proofs.«145473_j49100066128394_2_alg».proof.Proof.Gen.KernelIdeal.Frame
import proofs.«145473_j49100066128394_2_alg».proof.Proof.Gen.ReferenceIdeal
import proofs.«145473_j49100066128394_2_alg».proof.Proof.Gen.Pre_finite_inputs
import proofs.«145473_j49100066128394_2_alg».proof.Proof.Assembly
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Parts.frame_k, Cert.Proof.Parts.frame_ki, Cert.Proof.Parts.frame_ri, Cert.Proof.Parts.preserves,
  Cert.Proof.Parts.algebraic⟩

end Cert.Proof

end
